-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x625000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S128x256 : Shape := ⟨2, ![128, 256]⟩
abbrev S_ : Shape := ⟨0, ![]⟩
abbrev S256 : Shape := ⟨1, ![256]⟩
abbrev S1x256 : Shape := ⟨2, ![1, 256]⟩
abbrev S10000x128 : Shape := ⟨2, ![10000, 128]⟩
abbrev S10000x256 : Shape := ⟨2, ![10000, 256]⟩
abbrev S100000 : Shape := ⟨1, ![100000]⟩
abbrev S1x625000 : Shape := ⟨2, ![1, 625000]⟩
abbrev S625000 : Shape := ⟨1, ![625000]⟩
abbrev S725000 : Shape := ⟨1, ![725000]⟩
abbrev S725000x1 : Shape := ⟨2, ![725000, 1]⟩
abbrev S725000x128 : Shape := ⟨2, ![725000, 128]⟩
abbrev S1x128 : Shape := ⟨2, ![1, 128]⟩
abbrev S10x1x128 : Shape := ⟨3, ![10, 1, 128]⟩
abbrev S1x1x128 : Shape := ⟨3, ![1, 1, 128]⟩
abbrev S10x128 : Shape := ⟨2, ![10, 128]⟩

abbrev nBuf : Space → Nat
  | .hbm => 100
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x256, .f32⟩
  | .hbm, ⟨9, _⟩ => ⟨S_, .f32⟩
  | .hbm, ⟨10, _⟩ => ⟨S128, .f32⟩
  | .hbm, ⟨11, _⟩ => ⟨S256, .f32⟩
  | .hbm, ⟨12, _⟩ => ⟨S1x256, .f32⟩
  | .hbm, ⟨13, _⟩ => ⟨S100000x128, .f32⟩
  | .hbm, ⟨14, _⟩ => ⟨S100000x128, .f32⟩
  | .hbm, ⟨15, _⟩ => ⟨S100000, .i32⟩
  | .hbm, ⟨16, _⟩ => ⟨S1x625000, .i32⟩
  | .hbm, ⟨17, _⟩ => ⟨S625000, .i32⟩
  | .hbm, ⟨18, _⟩ => ⟨S725000, .i32⟩
  | .hbm, ⟨19, _⟩ => ⟨S1x625000, .i32⟩
  | .hbm, ⟨20, _⟩ => ⟨S625000, .i32⟩
  | .hbm, ⟨21, _⟩ => ⟨S725000, .i32⟩
  | .hbm, ⟨22, _⟩ => ⟨S_, .f32⟩
  | .hbm, ⟨23, _⟩ => ⟨S725000, .f32⟩
  | .hbm, ⟨24, _⟩ => ⟨S_, .f32⟩
  | .hbm, ⟨25, _⟩ => ⟨S100000, .f32⟩
  | .hbm, ⟨26, _⟩ => ⟨S725000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S725000, .i32⟩
  | .hbm, ⟨38, _⟩ => ⟨S725000, .i1⟩
  | .hbm, ⟨39, _⟩ => ⟨S_, .i32⟩
  | .hbm, ⟨40, _⟩ => ⟨S725000, .i32⟩
  | .hbm, ⟨41, _⟩ => ⟨S725000, .i32⟩
  | .hbm, ⟨42, _⟩ => ⟨S725000, .i32⟩
  | .hbm, ⟨43, _⟩ => ⟨S725000x1, .i32⟩
  | .hbm, ⟨44, _⟩ => ⟨S725000, .f32⟩
  | .hbm, ⟨45, _⟩ => ⟨S_, .i32⟩
  | .hbm, ⟨46, _⟩ => ⟨S725000, .i32⟩
  | .hbm, ⟨47, _⟩ => ⟨S725000, .i1⟩
  | .hbm, ⟨48, _⟩ => ⟨S_, .i32⟩
  | .hbm, ⟨49, _⟩ => ⟨S725000, .i32⟩
  | .hbm, ⟨50, _⟩ => ⟨S725000, .i32⟩
  | .hbm, ⟨51, _⟩ => ⟨S725000, .i32⟩
  | .hbm, ⟨52, _⟩ => ⟨S725000x1, .i32⟩
  | .hbm, ⟨53, _⟩ => ⟨S725000, .f32⟩
  | .hbm, ⟨54, _⟩ => ⟨S725000, .f32⟩
  | .hbm, ⟨55, _⟩ => ⟨S_, .i32⟩
  | .hbm, ⟨56, _⟩ => ⟨S725000, .i32⟩
  | .hbm, ⟨57, _⟩ => ⟨S725000, .i1⟩
  | .hbm, ⟨58, _⟩ => ⟨S_, .i32⟩
  | .hbm, ⟨59, _⟩ => ⟨S725000, .i32⟩
  | .hbm, ⟨60, _⟩ => ⟨S725000, .i32⟩
  | .hbm, ⟨61, _⟩ => ⟨S725000, .i32⟩
  | .hbm, ⟨62, _⟩ => ⟨S725000x1, .i32⟩
  | .hbm, ⟨63, _⟩ => ⟨S725000x128, .f32⟩
  | .hbm, ⟨64, _⟩ => ⟨S725000x1, .f32⟩
  | .hbm, ⟨65, _⟩ => ⟨S725000x128, .f32⟩
  | .hbm, ⟨66, _⟩ => ⟨S725000x128, .f32⟩
  | .hbm, ⟨67, _⟩ => ⟨S_, .f32⟩
  | .hbm, ⟨68, _⟩ => ⟨S100000x128, .f32⟩
  | .hbm, ⟨69, _⟩ => ⟨S725000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S10x1x128, .f32⟩
  | .hbm, ⟨76, _⟩ => ⟨S10x1x128, .f32⟩
  | .hbm, ⟨77, _⟩ => ⟨S10x128, .f32⟩
  | .hbm, ⟨78, _⟩ => ⟨S_, .f32⟩
  | .hbm, ⟨79, _⟩ => ⟨S128, .f32⟩
  | .hbm, ⟨80, _⟩ => ⟨S1x128, .f32⟩
  | .hbm, ⟨81, _⟩ => ⟨S10x128, .f32⟩
  | .hbm, ⟨82, _⟩ => ⟨S_, .f32⟩
  | .hbm, ⟨83, _⟩ => ⟨S128, .f32⟩
  | .hbm, ⟨84, _⟩ => ⟨S1x128, .f32⟩
  | .hbm, ⟨85, _⟩ => ⟨S_, .f32⟩
  | .hbm, ⟨86, _⟩ => ⟨S1x128, .f32⟩
  | .hbm, ⟨87, _⟩ => ⟨S1x128, .f32⟩
  | .hbm, ⟨88, _⟩ => ⟨S_, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S_, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x256, .f32⟩
  | .local _ .vmem, ⟨3, _⟩ => ⟨S1x256, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S10000x128, .f32⟩
  | .local _ .vmem, ⟨19, _⟩ => ⟨S10000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51_0 : Ref sig .tc := ⟨.hbm, 74, rfl⟩
abbrev main_v51_1 : Ref sig .tc := ⟨.hbm, 75, rfl⟩
abbrev main_v51_2 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  concatenates_S128x128_S128x128_S128x256_d1 : Shape.Concatenates [S128x128, S128x128] S128x256 1
  bcast_S_S128 : S_.BroadcastsInDim S128 (![] : Fin 0 → Fin S128.rank)
  concatenates_S128_S128_S256_d0 : Shape.Concatenates [S128, S128] S256 0
  shapeCasts_S256_S1x256 : S256.ShapeCasts S1x256
  inb_S10000x128_S10000x128_0_0 : ∀ a, (![0, 0] : Fin 2 → Nat) a + S10000x128.size a ≤ S10000x128.size a
  h_S10000x128 : 0 < S10000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  slices_S10000x256_o0_0_S10000x128 : S10000x256.Slices ![0, 0] S10000x128
  slices_S10000x256_o0_128_S10000x128 : S10000x256.Slices ![0, 128] S10000x128
  slices_S2x625000_S1x625000_0_0 : S2x625000.Slices ![0, 0] S1x625000
  shapeCasts_S1x625000_S625000 : S1x625000.ShapeCasts S625000
  concatenates_S625000_S100000_S725000_d0 : Shape.Concatenates [S625000, S100000] S725000 0
  slices_S2x625000_S1x625000_1_0 : S2x625000.Slices ![1, 0] S1x625000
  bcast_S_S725000 : S_.BroadcastsInDim S725000 (![] : Fin 0 → Fin S725000.rank)
  bcast_S_S100000 : S_.BroadcastsInDim S100000 (![] : Fin 0 → Fin S100000.rank)
  bcast_S725000_S725000x1_0 : S725000.BroadcastsInDim S725000x1 (![0] : Fin 1 → Fin S725000x1.rank)
  bcast_S725000x1_S725000x128_0_1 : S725000x1.BroadcastsInDim S725000x128 (![0, 1] : Fin 2 → Fin S725000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  reduces_S10000x128_S128 : S10000x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S10x1x128_S10x128 : S10x1x128.ShapeCasts S10x128
  reducesTo_S10x128_S128_d0 : S10x128.ReducesTo [0] S128
  h_S_ : 0 < S_.numel
  bcast_S_S1x128 : S_.BroadcastsInDim S1x128 (![] : Fin 0 → Fin S1x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  dot_S10000x128_S128x256_S10000x256_1_0_0_1_n_n_wf : DotDims.WF S10000x128 S128x256 S10000x256 [1] [0] [0] [1] [] []
  scatter_S100000_S725000x1_S725000_n_0_0_1_wf : ScatterDims.WF S100000 S725000x1 S725000 [] [0] [0] 1
  gather_S100000_S725000x1_S725000_n_0_n_n_0_1_1_wf : GatherDims.WF S100000 S725000x1 S725000 [] [0] [] [0] [] 1 ![1]
  gather_S100000x128_S725000x1_S725000x128_1_0_n_n_0_1_1128_wf : GatherDims.WF S100000x128 S725000x1 S725000x128 [1] [0] [] [0] [] 1 ![1, 128]
  scatter_S100000x128_S725000x1_S725000x128_1_0_0_1_wf : ScatterDims.WF S100000x128 S725000x1 S725000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S10x1x128.size a
  hwx1_3 : ∀ i : grid1.Coords, EltTy.bits .f32 = 32 ∨ (Rect.block (s := S10x1x128) S1x1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S10x1x128.size a
  hwx1_4 : ∀ i : grid1.Coords, EltTy.bits .f32 = 32 ∨ (Rect.block (s := S10x1x128) S1x1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def scatter_S100000_S725000x1_S725000_n_0_0_1 : ScatterDims S100000 S725000x1 S725000 where
  updateWindowDims := []
  insertedWindowDims := [0]
  scatterDimsToOperandDims := [0]
  indexVectorDim := 1
  wf := scatter_S100000_S725000x1_S725000_n_0_0_1_wf
def gather_S100000_S725000x1_S725000_n_0_n_n_0_1_1 : GatherDims S100000 S725000x1 S725000 where
  offsetDims := []
  collapsedSliceDims := [0]
  operandBatchingDims := []
  startIndicesBatchingDims := []
  startIndexMap := [0]
  indexVectorDim := 1
  sliceSizes := ![1]
  wf := gather_S100000_S725000x1_S725000_n_0_n_n_0_1_1_wf
def gather_S100000x128_S725000x1_S725000x128_1_0_n_n_0_1_1128 : GatherDims S100000x128 S725000x1 S725000x128 where
  offsetDims := [1]
  collapsedSliceDims := [0]
  operandBatchingDims := []
  startIndicesBatchingDims := []
  startIndexMap := [0]
  indexVectorDim := 1
  sliceSizes := ![1, 128]
  wf := gather_S100000x128_S725000x1_S725000x128_1_0_n_n_0_1_1128_wf
def scatter_S100000x128_S725000x1_S725000x128_1_0_0_1 : ScatterDims S100000x128 S725000x1 S725000x128 where
  updateWindowDims := [1]
  insertedWindowDims := [0]
  scatterDimsToOperandDims := [0]
  indexVectorDim := 1
  wf := scatter_S100000x128_S725000x1_S725000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v50) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51_0) S10000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51_1) S1x1x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v51_2) S1x1x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S100000 : Shape := ⟨1, ![100000]⟩
abbrev S1x625000 : Shape := ⟨2, ![1, 625000]⟩
abbrev S625000 : Shape := ⟨1, ![625000]⟩
abbrev S725000 : Shape := ⟨1, ![725000]⟩
abbrev S_ : Shape := ⟨0, ![]⟩
abbrev S725000x1 : Shape := ⟨2, ![725000, 1]⟩
abbrev S725000x128 : Shape := ⟨2, ![725000, 128]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S100000, .i32⟩
  | .hbm, ⟨9, _⟩ => ⟨S1x625000, .i32⟩
  | .hbm, ⟨10, _⟩ => ⟨S625000, .i32⟩
  | .hbm, ⟨11, _⟩ => ⟨S725000, .i32⟩
  | .hbm, ⟨12, _⟩ => ⟨S1x625000, .i32⟩
  | .hbm, ⟨13, _⟩ => ⟨S625000, .i32⟩
  | .hbm, ⟨14, _⟩ => ⟨S725000, .i32⟩
  | .hbm, ⟨15, _⟩ => ⟨S_, .f32⟩
  | .hbm, ⟨16, _⟩ => ⟨S725000, .f32⟩
  | .hbm, ⟨17, _⟩ => ⟨S_, .f32⟩
  | .hbm, ⟨18, _⟩ => ⟨S100000, .f32⟩
  | .hbm, ⟨19, _⟩ => ⟨S725000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S725000, .i32⟩
  | .hbm, ⟨31, _⟩ => ⟨S725000, .i1⟩
  | .hbm, ⟨32, _⟩ => ⟨S_, .i32⟩
  | .hbm, ⟨33, _⟩ => ⟨S725000, .i32⟩
  | .hbm, ⟨34, _⟩ => ⟨S725000, .i32⟩
  | .hbm, ⟨35, _⟩ => ⟨S725000, .i32⟩
  | .hbm, ⟨36, _⟩ => ⟨S725000x1, .i32⟩
  | .hbm, ⟨37, _⟩ => ⟨S725000, .f32⟩
  | .hbm, ⟨38, _⟩ => ⟨S_, .i32⟩
  | .hbm, ⟨39, _⟩ => ⟨S725000, .i32⟩
  | .hbm, ⟨40, _⟩ => ⟨S725000, .i1⟩
  | .hbm, ⟨41, _⟩ => ⟨S_, .i32⟩
  | .hbm, ⟨42, _⟩ => ⟨S725000, .i32⟩
  | .hbm, ⟨43, _⟩ => ⟨S725000, .i32⟩
  | .hbm, ⟨44, _⟩ => ⟨S725000, .i32⟩
  | .hbm, ⟨45, _⟩ => ⟨S725000x1, .i32⟩
  | .hbm, ⟨46, _⟩ => ⟨S725000, .f32⟩
  | .hbm, ⟨47, _⟩ => ⟨S725000, .f32⟩
  | .hbm, ⟨48, _⟩ => ⟨S100000x128, .f32⟩
  | .hbm, ⟨49, _⟩ => ⟨S_, .i32⟩
  | .hbm, ⟨50, _⟩ => ⟨S725000, .i32⟩
  | .hbm, ⟨51, _⟩ => ⟨S725000, .i1⟩
  | .hbm, ⟨52, _⟩ => ⟨S_, .i32⟩
  | .hbm, ⟨53, _⟩ => ⟨S725000, .i32⟩
  | .hbm, ⟨54, _⟩ => ⟨S725000, .i32⟩
  | .hbm, ⟨55, _⟩ => ⟨S725000, .i32⟩
  | .hbm, ⟨56, _⟩ => ⟨S725000x1, .i32⟩
  | .hbm, ⟨57, _⟩ => ⟨S725000x128, .f32⟩
  | .hbm, ⟨58, _⟩ => ⟨S725000x1, .f32⟩
  | .hbm, ⟨59, _⟩ => ⟨S725000x128, .f32⟩
  | .hbm, ⟨60, _⟩ => ⟨S725000x128, .f32⟩
  | .hbm, ⟨61, _⟩ => ⟨S_, .f32⟩
  | .hbm, ⟨62, _⟩ => ⟨S100000x128, .f32⟩
  | .hbm, ⟨63, _⟩ => ⟨S725000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  concatenates_S625000_S100000_S725000_d0 : Shape.Concatenates [S625000, S100000] S725000 0
  slices_S2x625000_S1x625000_1_0 : S2x625000.Slices ![1, 0] S1x625000
  bcast_S_S725000 : S_.BroadcastsInDim S725000 (![] : Fin 0 → Fin S725000.rank)
  bcast_S_S100000 : S_.BroadcastsInDim S100000 (![] : Fin 0 → Fin S100000.rank)
  bcast_S725000_S725000x1_0 : S725000.BroadcastsInDim S725000x1 (![0] : Fin 1 → Fin S725000x1.rank)
  bcast_S725000x1_S725000x128_0_1 : S725000x1.BroadcastsInDim S725000x128 (![0, 1] : Fin 2 → Fin S725000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  scatter_S100000_S725000x1_S725000_n_0_0_1_wf : ScatterDims.WF S100000 S725000x1 S725000 [] [0] [0] 1
  gather_S100000_S725000x1_S725000_n_0_n_n_0_1_1_wf : GatherDims.WF S100000 S725000x1 S725000 [] [0] [] [0] [] 1 ![1]
  dot_S100000x128_S128x128_S100000x128_1_0_0_1_n_n_wf : DotDims.WF S100000x128 S128x128 S100000x128 [1] [0] [0] [1] [] []
  gather_S100000x128_S725000x1_S725000x128_1_0_n_n_0_1_1128_wf : GatherDims.WF S100000x128 S725000x1 S725000x128 [1] [0] [] [0] [] 1 ![1, 128]
  scatter_S100000x128_S725000x1_S725000x128_1_0_0_1_wf : ScatterDims.WF S100000x128 S725000x1 S725000x128 [1] [0] [0] 1

variable [Facts₀]

def scatter_S100000_S725000x1_S725000_n_0_0_1 : ScatterDims S100000 S725000x1 S725000 where
  updateWindowDims := []
  insertedWindowDims := [0]
  scatterDimsToOperandDims := [0]
  indexVectorDim := 1
  wf := scatter_S100000_S725000x1_S725000_n_0_0_1_wf
def gather_S100000_S725000x1_S725000_n_0_n_n_0_1_1 : GatherDims S100000 S725000x1 S725000 where
  offsetDims := []
  collapsedSliceDims := [0]
  operandBatchingDims := []
  startIndicesBatchingDims := []
  startIndexMap := [0]
  indexVectorDim := 1
  sliceSizes := ![1]
  wf := gather_S100000_S725000x1_S725000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S725000x1_S725000x128_1_0_n_n_0_1_1128 : GatherDims S100000x128 S725000x1 S725000x128 where
  offsetDims := [1]
  collapsedSliceDims := [0]
  operandBatchingDims := []
  startIndicesBatchingDims := []
  startIndexMap := [0]
  indexVectorDim := 1
  sliceSizes := ![1, 128]
  wf := gather_S100000x128_S725000x1_S725000x128_1_0_n_n_0_1_1128_wf
def scatter_S100000x128_S725000x1_S725000x128_1_0_0_1 : ScatterDims S100000x128 S725000x1 S725000x128 where
  updateWindowDims := [1]
  insertedWindowDims := [0]
  scatterDimsToOperandDims := [0]
  indexVectorDim := 1
  wf := scatter_S100000x128_S725000x1_S725000x128_1_0_0_1_wf

class Facts : Prop extends Facts₀ where

variable [Facts]
-- ==== Proof.KernelRun.lean ====
/-
  The idealized kernel's run with its result named.

  The generated frame runs @main as eight segments (five stretches of host operations and three grid regions) and keeps, of
  the final memory, only that the eight argument arrays are unchanged. The same run also determines the result array: every
  unscoped buffer ends at the contents `W8` that the segment-by-segment fold assigns it, and the result array is one of
  them. This module states that run with the result array beside the arguments.
-/
import proofs.«105547_j40785009443358_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the fold's final contents
    and the argument arrays as launched. -/
theorem run : θ_run defs (onTc (τ := τ) (main (F := F))) ⟨m, fun _ => 0, ρ⟩ (fun r => ∀ c : Dev nD,
      r.2.mem ((c.tc : Thread nD τ).loc main_v69) = W8 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v69 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.Region0.lean ====
/-
  The first grid region (the fused linear maps), as functions of the three arrays it finds.

  Grid point `t` of ten reads rows `10000 t … 10000 t + 9999` of the [100000, 128] array `x`, and the [128, 256] matrix
  `wc` and the [1, 256] row `bc` whole. It forms `x · wc + bc` (a [10000, 256] block), writes its left 128 columns to the
  same rows of the first result and the maximum of its right 128 columns and zero to the same rows of the second.
  The row blocks tile both results, so after the region, with `j < 128`:
    first  (i, j) = (∑ k < 128, x (i, k) * wc (k, j)) + bc (0, j),
    second (i, j) = max ((∑ k < 128, x (i, k) * wc (k, 128 + j)) + bc (0, 128 + j)) 0.
-/
import proofs.«105547_j40785009443358_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Linear

open Cert.KernelIdeal Cert.KernelIdeal.Gen
open Idealize.ShloMosaic Idealize.ShloMosaic.TcCoe Idealize.ShloMosaic.ValueIdx Idealize.SL.Sem
open Idealize.ShloMosaic.Pipeline (Dat Cfg Window)

open scoped BigOperators

/-- Column `j` of the left half and of the right half of a 256-column array. -/
def colL (j : Fin 128) : Fin 256 := ⟨j.val, by have := j.isLt; omega⟩
def colR (j : Fin 128) : Fin 256 := ⟨128 + j.val, by have := j.isLt; omega⟩

/-- Entry `(i, c)` of `x · wc + bc`. -/
def affine (x : S100000x128.Idx → EReal) (wc : S128x256.Idx → EReal) (bc : S1x256.Idx → EReal) (i : Fin 100000) (c : Fin 256) : EReal :=
  (∑ k : Fin 128, x (ix2 i k) * wc (ix2 k c)) + bc (ix2 (0 : Fin 1) c)

/-- The left half of `x · wc + bc`. -/
def leftHalf (x : S100000x128.Idx → EReal) (wc : S128x256.Idx → EReal) (bc : S1x256.Idx → EReal) : S100000x128.Idx → EReal :=
  fun i => affine x wc bc (i 0) (colL (i 1))

/-- The right half of `x · wc + bc`, cut off below at the zero word's value. -/
def rightHalfRelu (x : S100000x128.Idx → EReal) (wc : S128x256.Idx → EReal) (bc : S1x256.Idx → EReal) : S100000x128.Idx → EReal :=
  fun i => max (affine x wc bc (i 0) (colR (i 1))) (Ideal.ofBits .f32 0x00000000#32)

theorem zeros2 : (![0, 0] : Fin 2 → Nat) = fun _ => 0 := funext fun a => by fin_cases a <;> rfl

/-- The dimension numbers of the block product: [10000, 128] · [128, 256], contracting the shared axis. -/
abbrev mm : DotDims S10000x128 S128x256 S10000x256 := dot_S10000x128_S128x256_S10000x256_1_0_0_1_n_n

theorem lhs_row (i : S10000x256.Idx) (q : mm.contr.Idx) : (mm.lhsIdx i q 0).val = (i 0).val := by
  unfold DotDims.lhsIdx
  rw [dif_neg (show ¬(0 : Fin S10000x128.rank) ∈ mm.lhsBatch by decide), dif_pos (show (0 : Fin S10000x128.rank) ∈ mm.lhsNonContracting by decide)]
  rfl
theorem lhs_contr (i : S10000x256.Idx) (q : mm.contr.Idx) : (mm.lhsIdx i q 1).val = (q ⟨0, by decide⟩).val :=
  mm.lhsIdx_val_of_single rfl i q
theorem rhs_contr (i : S10000x256.Idx) (q : mm.contr.Idx) : (mm.rhsIdx i q 0).val = (q ⟨0, by decide⟩).val :=
  mm.rhsIdx_val_of_single rfl i q
theorem rhs_col (i : S10000x256.Idx) (q : mm.contr.Idx) : (mm.rhsIdx i q 1).val = (i 1).val := by
  unfold DotDims.rhsIdx
  rw [dif_neg (show ¬(1 : Fin S128x256.rank) ∈ mm.rhsBatch by decide), dif_pos (show (1 : Fin S128x256.rank) ∈ mm.rhsNonContracting by decide)]
  rfl

/-- The block product into a zero accumulator, at `(p, c)`: the sum over the shared axis. -/
theorem product_apply (x0 : FVec Ideal S10000x128 .f32) (w : FVec Ideal S128x256 .f32) (p : Fin 10000) (c : Fin 256) :
    matmul mm (some .fp32) x0 w (constant S10000x256 .f32 0x00000000#32) (ix2 p c) = ∑ k : Fin 128, x0 (ix2 p k) * w (ix2 k c) := by
  refine (Ideal.matmul_constant_zero_apply mm (some .fp32) x0 w (ix2 p c)).trans ?_
  rw [← Equiv.sum_comp (contrEquiv1 mm 128 rfl rfl).symm]
  refine Finset.sum_congr rfl fun k _ => ?_
  have hk := contrEquiv1_symm_val mm 128 rfl rfl k
  have el : mm.lhsIdx (ix2 p c) ((contrEquiv1 mm 128 rfl rfl).symm k) = ix2 p k := funext fun a => Fin.ext (by
    match a with
    | ⟨0, _⟩ => exact lhs_row _ _
    | ⟨1, _⟩ => exact (lhs_contr _ _).trans hk)
  have er : mm.rhsIdx (ix2 p c) ((contrEquiv1 mm 128 rfl rfl).symm k) = ix2 k c := funext fun a => Fin.ext (by
    match a with
    | ⟨0, _⟩ => exact (rhs_contr _ _).trans hk
    | ⟨1, _⟩ => exact rhs_col _ _)
  rw [el, er]

/-- The [10000, 256] block `x0 · w + b` at `(p, c)`. -/
theorem block_affine_apply (x0 : FVec Ideal S10000x128 .f32) (w : FVec Ideal S128x256 .f32) (b : FVec Ideal S1x256 .f32)
    (p : Fin 10000) (c : Fin 256) :
    k0_pay1 (F := Ideal) x0 w b (ix2 p c) = (∑ k : Fin 128, x0 (ix2 p k) * w (ix2 k c)) + b (ix2 (0 : Fin 1) c) := by
  unfold k0_pay1
  simp only [shapeCast_self]
  rw [addf_apply, broadcastTo_1b_ab_apply]
  exact congrArg (· + b (ix2 (0 : Fin 1) c)) (product_apply x0 w p c)

/-- The left 128 columns and the right 128 columns of a [10000, 256] array, at `(p, q)`. -/
theorem slice_left (Z : S10000x256.Idx → EReal) (p : Fin 10000) (q : Fin 128) :
    extractStridedSlice S10000x128 ![0, 0] Z slices_S10000x256_o0_0_S10000x128 (ix2 p q) = Z (ix2 p (colL q)) :=
  slice2_axis1_apply 0 Z slices_S10000x256_o0_0_S10000x128 p q (colL q) (by show q.val = 0 + q.val; omega)

theorem slice_right (Z : S10000x256.Idx → EReal) (p : Fin 10000) (q : Fin 128) :
    extractStridedSlice S10000x128 ![0, 128] Z slices_S10000x256_o0_128_S10000x128 (ix2 p q) = Z (ix2 p (colR q)) :=
  slice2_axis1_apply 128 Z slices_S10000x256_o0_128_S10000x128 p q (colR q) rfl

/-- The left slice at `(p, q)` is the block at column `q`. -/
theorem left_apply (x0 : FVec Ideal S10000x128 .f32) (w : FVec Ideal S128x256 .f32) (b : FVec Ideal S1x256 .f32)
    (p : Fin 10000) (q : Fin 128) :
    k0_pay2 (F := Ideal) x0 w b (ix2 p q) = (∑ k : Fin 128, x0 (ix2 p k) * w (ix2 k (colL q))) + b (ix2 (0 : Fin 1) (colL q)) := by
  unfold k0_pay2
  generalize hZ : k0_pay1 (F := Ideal) x0 w b = Z
  rw [slice_left, ← hZ]
  exact block_affine_apply x0 w b p (colL q)

/-- The right slice, cut off below at the zero word's value, at `(p, q)`. -/
theorem right_apply (x0 : FVec Ideal S10000x128 .f32) (w : FVec Ideal S128x256 .f32) (b : FVec Ideal S1x256 .f32)
    (p : Fin 10000) (q : Fin 128) :
    k0_pay3 (F := Ideal) x0 w b (ix2 p q)
      = max ((∑ k : Fin 128, x0 (ix2 p k) * w (ix2 k (colR q))) + b (ix2 (0 : Fin 1) (colR q))) (Ideal.ofBits .f32 0x00000000#32) := by
  unfold k0_pay3
  generalize hZ : k0_pay1 (F := Ideal) x0 w b = Z
  rw [maximumf_apply, slice_right, ← hZ]
  exact congrArg (max · (Ideal.ofBits .f32 0x00000000#32)) (block_affine_apply x0 w b p (colR q))

/-- A block of the first result is the same block of the left half, once the loaded blocks are identified: `e` is the
    block's place in the array, at rows `10000 T …`. -/
theorem block_left (x0 : FVec Ideal S10000x128 .f32) (w : FVec Ideal S128x256 .f32) (b : FVec Ideal S1x256 .f32)
    (X : S100000x128.Idx → EReal) (e : S10000x128.Idx → S100000x128.Idx)
    (h0 : ∀ y : S10000x128.Idx, x0 y = X (ix2 ((e y) 0) (y 1)))
    (hrow : ∀ y y' : S10000x128.Idx, (y 0).val = (y' 0).val → ((e y) 0).val = ((e y') 0).val)
    (hcol : ∀ y : S10000x128.Idx, ((e y) 1).val = (y 1).val) (j : S10000x128.Idx) :
    k0_pay2 (F := Ideal) x0 w b j = leftHalf X w b (e j) := by
  obtain ⟨p, q, rfl⟩ : ∃ (p : Fin 10000) (q : Fin 128), j = ix2 p q := ⟨j 0, j 1, eq_ix2 j⟩
  rw [left_apply]
  unfold leftHalf affine
  have hc : colL ((e (ix2 p q)) 1) = colL q := congrArg colL (Fin.ext (hcol (ix2 p q)))
  rw [hc]
  refine congrArg (· + b (ix2 (0 : Fin 1) (colL q))) (Finset.sum_congr rfl fun k _ => ?_)
  rw [h0]
  have hr : (e (ix2 p k)) 0 = (e (ix2 p q)) 0 := Fin.ext (hrow _ _ rfl)
  rw [hr]

theorem block_right (x0 : FVec Ideal S10000x128 .f32) (w : FVec Ideal S128x256 .f32) (b : FVec Ideal S1x256 .f32)
    (X : S100000x128.Idx → EReal) (e : S10000x128.Idx → S100000x128.Idx)
    (h0 : ∀ y : S10000x128.Idx, x0 y = X (ix2 ((e y) 0) (y 1)))
    (hrow : ∀ y y' : S10000x128.Idx, (y 0).val = (y' 0).val → ((e y) 0).val = ((e y') 0).val)
    (hcol : ∀ y : S10000x128.Idx, ((e y) 1).val = (y 1).val) (j : S10000x128.Idx) :
    k0_pay3 (F := Ideal) x0 w b j = rightHalfRelu X w b (e j) := by
  obtain ⟨p, q, rfl⟩ : ∃ (p : Fin 10000) (q : Fin 128), j = ix2 p q := ⟨j 0, j 1, eq_ix2 j⟩
  rw [right_apply]
  unfold rightHalfRelu affine
  have hc : colR ((e (ix2 p q)) 1) = colR q := congrArg colR (Fin.ext (hcol (ix2 p q)))
  rw [hc]
  refine congrArg (max · (Ideal.ofBits .f32 0x00000000#32)) ?_
  refine congrArg (· + b (ix2 (0 : Fin 1) (colR q))) (Finset.sum_congr rfl fun k _ => ?_)
  rw [h0]
  have hr : (e (ix2 p k)) 0 = (e (ix2 p q)) 0 := Fin.ext (hrow _ _ rfl)
  rw [hr]

/-- The index maps over the grid: the row-tiled windows at block row `t`, the matrix and the bias row at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- The matrix and the bias row are read whole at every point. -/
theorem in_matrix (c : Dev nD) (t : Fin cfg0.N) : iblk0 V c 1 t = V c main_v0 := by
  obtain ⟨-, -, e10, e11, -⟩ := index_facts t
  funext y
  show V c main_v0 (((cfg0.win 1).blk t).view.emb y) = V c main_v0 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

theorem in_bias (c : Dev nD) (t : Fin cfg0.N) : iblk0 V c 2 t = V c main_v3 := by
  obtain ⟨-, -, -, -, e20, e21, -⟩ := index_facts t
  funext y
  show V c main_v3 (((cfg0.win 2).blk t).view.emb y) = V c main_v3 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- The block of `x` at point `t`, against the place of output window `w`'s block (`w` = 3 or 4). -/
theorem in_rows3 (c : Dev nD) (t : Fin cfg0.N) (y : S10000x128.Idx) :
    iblk0 V c 0 t y = V c main_arg0 (ix2 ((((cfg0.win 3).blk t).view.emb y) 0) (y 1)) := by
  obtain ⟨e00, e01, -, -, -, -, e30, e31, -⟩ := index_facts t
  show V c main_arg0 (((cfg0.win 0).blk t).view.emb y) = _
  refine congrArg _ (funext fun a => Fin.ext ?_)
  match a with
  | ⟨0, _⟩ => show win0_0.index t (0 : Fin 2) * 10000 + 1 * (y 0).val = win0_3.index t (0 : Fin 2) * 10000 + 1 * (y 0).val; omega
  | ⟨1, _⟩ => show win0_0.index t (1 : Fin 2) * 128 + 1 * (y 1).val = (y 1).val; omega

theorem in_rows4 (c : Dev nD) (t : Fin cfg0.N) (y : S10000x128.Idx) :
    iblk0 V c 0 t y = V c main_arg0 (ix2 ((((cfg0.win 4).blk t).view.emb y) 0) (y 1)) := by
  obtain ⟨e00, e01, -, -, -, -, -, -, e40, e41⟩ := index_facts t
  show V c main_arg0 (((cfg0.win 0).blk t).view.emb y) = _
  refine congrArg _ (funext fun a => Fin.ext ?_)
  match a with
  | ⟨0, _⟩ => show win0_0.index t (0 : Fin 2) * 10000 + 1 * (y 0).val = win0_4.index t (0 : Fin 2) * 10000 + 1 * (y 0).val; omega
  | ⟨1, _⟩ => show win0_0.index t (1 : Fin 2) * 128 + 1 * (y 1).val = (y 1).val; omega

/-- What point `t` writes back to the first result is block `t` of the left half. -/
theorem flushed_left (c : Dev nD) (t : Fin cfg0.N) :
    (dat0 V c).flushed 3 t = ((cfg0.win 3).blk t).view.read (Elt Ideal) (leftHalf (V c main_arg0) (V c main_v0) (V c main_v3)) := by
  show (cfg0.win 3).cut (grid0.coords t) ((dat0 V c).after 3 t) = _
  rw [after0_3]
  unfold out0_3
  rw [View.canon_unit_zero zeros2]
  simp only [View.ld_unit_zero (S := S10000x128) zeros2, View.ld_unit_zero (S := S128x256) zeros2, View.ld_unit_zero (S := S1x256) zeros2]
  rw [in_matrix V c t, in_bias V c t]
  obtain ⟨-, -, -, -, -, -, e30, e31, -⟩ := index_facts t
  funext j
  refine block_left (iblk0 V c 0 t) (V c main_v0) (V c main_v3) (V c main_arg0) (fun y => ((cfg0.win 3).blk t).view.emb y)
    (in_rows3 V c t) ?_ ?_ j
  · intro y y' hy
    show win0_3.index t (0 : Fin 2) * 10000 + 1 * (y 0).val = win0_3.index t (0 : Fin 2) * 10000 + 1 * (y' 0).val
    omega
  · intro y
    show win0_3.index t (1 : Fin 2) * 128 + 1 * (y 1).val = (y 1).val
    omega

/-- What point `t` writes back to the second result is block `t` of the right half cut off at zero. -/
theorem flushed_right (c : Dev nD) (t : Fin cfg0.N) :
    (dat0 V c).flushed 4 t = ((cfg0.win 4).blk t).view.read (Elt Ideal) (rightHalfRelu (V c main_arg0) (V c main_v0) (V c main_v3)) := by
  show (cfg0.win 4).cut (grid0.coords t) ((dat0 V c).after 4 t) = _
  rw [after0_4]
  unfold out0_4
  rw [View.canon_unit_zero zeros2]
  simp only [View.ld_unit_zero (S := S10000x128) zeros2, View.ld_unit_zero (S := S128x256) zeros2, View.ld_unit_zero (S := S1x256) zeros2]
  rw [in_matrix V c t, in_bias V c t]
  obtain ⟨-, -, -, -, -, -, -, -, e40, e41⟩ := index_facts t
  funext j
  refine block_right (iblk0 V c 0 t) (V c main_v0) (V c main_v3) (V c main_arg0) (fun y => ((cfg0.win 4).blk t).view.emb y)
    (in_rows4 V c t) ?_ ?_ j
  · intro y y' hy
    show win0_4.index t (0 : Fin 2) * 10000 + 1 * (y 0).val = win0_4.index t (0 : Fin 2) * 10000 + 1 * (y' 0).val
    omega
  · intro y
    show win0_4.index t (1 : Fin 2) * 128 + 1 * (y 1).val = (y 1).val
    omega

theorem mem_blk_left (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v4_0).slice (win0_3.rect t)).set ↔ _
  rw [View.set_slice_whole, Rect.mem_set_unit]
  exact Iff.rfl

theorem mem_blk_right (t : Fin cfg0.N) (i : S100000x128.Idx) :
    i ∈ ((cfg0.win 4).blk t).view.set ↔ ∀ a : Fin 2, win0_4.index t a * S10000x128.size a ≤ (i a).val
      ∧ (i a).val < win0_4.index t a * S10000x128.size a + S10000x128.size a := by
  show i ∈ ((View.whole main_v4_1).slice (win0_4.rect t)).set ↔ _
  rw [View.set_slice_whole, Rect.mem_set_unit]
  exact Iff.rfl

/-- Row `r` is in the block of point `r / 10000`, for both results. -/
theorem cover_left (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 10000, by rw [show cfg0.N = 10 from N_0]; omega⟩
  obtain ⟨-, -, -, -, -, -, e30, e31, -⟩ := index_facts t
  have ht : t.val = (i 0).val / 10000 := rfl
  refine ⟨t, flush0_3 t, ?_⟩
  rw [mem_blk_left]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

theorem cover_right (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  let t : Fin cfg0.N := ⟨(i 0).val / 10000, by rw [show cfg0.N = 10 from N_0]; omega⟩
  obtain ⟨-, -, -, -, -, -, -, -, e40, e41⟩ := index_facts t
  have ht : t.val = (i 0).val / 10000 := rfl
  refine ⟨t, flush0_4 t, ?_⟩
  rw [mem_blk_right]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 128 ≤ (i 1).val ∧ (i 1).val < win0_4.index t (1 : Fin 2) * 128 + 128; omega

/-- THE TWO RESULT ARRAYS after the region. -/
theorem final_left (c : Dev nD) : (dat0 V c).arrAt 3 cfg0.N = leftHalf (V c main_arg0) (V c main_v0) (V c main_v3) :=
  (dat0 V c).arrAt_eq_of_cover 3 _ (fun t _ => flushed_left V c t) cover_left

theorem final_right (c : Dev nD) : (dat0 V c).arrAt 4 cfg0.N = rightHalfRelu (V c main_arg0) (V c main_v0) (V c main_v3) :=
  (dat0 V c).arrAt_eq_of_cover 4 _ (fun t _ => flushed_right V c t) cover_right

end Cert.KernelIdeal.Linear

end
-- ==== Proof.Region1.lean ====
/-
  The second grid region (residual sum and per-tile column sums), as functions of the two arrays it finds.

  Grid point `t` of ten reads rows `10000 t … 10000 t + 9999` of the two [100000, 128] arrays `a` and `r`, writes their sum
  `y = a + r` to the same rows of the first result, and writes to row `t` of the two [10, 1, 128] results the column sums
  over its 10000 rows of `y` and of `y * y`. The row blocks tile the first result and the ten single rows tile the other
  two, so after the region: `y (i, j) = a (i, j) + r (i, j)`, `s (t, 0, j) = ∑ p < 10000, y (10000 t + p, j)`, and
  `ss (t, 0, j) = ∑ p < 10000, y (10000 t + p, j) * y (10000 t + p, j)`.
-/
import proofs.«105547_j40785009443358_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stats

open Cert.KernelIdeal Cert.KernelIdeal.Gen
open Idealize.ShloMosaic Idealize.ShloMosaic.TcCoe Idealize.ShloMosaic.ValueIdx Idealize.SL.Sem
open Idealize.ShloMosaic.Pipeline (Dat Cfg Window)

open scoped BigOperators

/-- Row `p` of tile `t`. -/
def rowIn (t : Fin 10) (p : Fin 10000) : Fin 100000 := ⟨t.val * 10000 + p.val, by have := t.isLt; have := p.isLt; omega⟩

/-- The entrywise sum of two arrays. -/
def addRows (a r : S100000x128.Idx → EReal) : S100000x128.Idx → EReal := fun i => a i + r i

/-- Per tile of 10000 rows, the column sums of an array. -/
def tileSums (y : S100000x128.Idx → EReal) : S10x1x128.Idx → EReal :=
  fun i => ∑ p : Fin 10000, y (ix2 (rowIn (i 0) p) (i 2))

/-- Per tile of 10000 rows, the column sums of an array's squares. -/
def tileSqSums (y : S100000x128.Idx → EReal) : S10x1x128.Idx → EReal :=
  fun i => ∑ p : Fin 10000, y (ix2 (rowIn (i 0) p) (i 2)) * y (ix2 (rowIn (i 0) p) (i 2))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The body's first result is the entrywise sum of its two blocks. -/
theorem sum_eq (x0 x1 : Vec Ideal S10000x128 .f32) : k1_pay1 x0 x1 = fun y => x0 y + x1 y := by
  unfold k1_pay1
  simp only [shapeCast_self]
  rfl

/-- The index a column reduction reads for column `q` at row `p`. -/
theorem lift_eq (q : Fin 128) (p : Fin 10000) : reduces_S10000x128_S128.lift (ix1 q) p = ix2 p q := by
  funext a
  match a with
  | ⟨0, _⟩ => rfl
  | ⟨1, _⟩ => rfl

/-- The body's second result at `(0, 0, q)`: the column sum of the block sum. -/
theorem colsum_apply (x0 x1 : Vec Ideal S10000x128 .f32) (u v : Fin 1) (q : Fin 128) :
    k1_pay2 x0 x1 (ix3 u v q) = ∑ p : Fin 10000, (x0 (ix2 p q) + x1 (ix2 p q)) := by
  unfold k1_pay2
  rw [shapeCast_ab_1ab_apply, shapeCast_a_1a_apply]
  refine (Ideal.multiReduction_add_single (k1_pay1 x0 x1) 0x00000000#32 reduces_S10000x128_S128 (.inl rfl) rfl (ix1 q)).trans ?_
  show ∑ p : Fin 10000, k1_pay1 x0 x1 (reduces_S10000x128_S128.lift (ix1 q) p) = _
  refine Finset.sum_congr rfl fun p _ => ?_
  rw [lift_eq, sum_eq]

/-- The body's third result at `(0, 0, q)`: the column sum of the squared block sum. -/
theorem colsqsum_apply (x0 x1 : Vec Ideal S10000x128 .f32) (u v : Fin 1) (q : Fin 128) :
    k1_pay3 x0 x1 (ix3 u v q) = ∑ p : Fin 10000, (x0 (ix2 p q) + x1 (ix2 p q)) * (x0 (ix2 p q) + x1 (ix2 p q)) := by
  unfold k1_pay3
  rw [shapeCast_ab_1ab_apply, shapeCast_a_1a_apply]
  refine (Ideal.multiReduction_add_single (mulf (k1_pay1 x0 x1) (k1_pay1 x0 x1)) 0x00000000#32 reduces_S10000x128_S128 (.inl rfl) rfl (ix1 q)).trans ?_
  show ∑ p : Fin 10000, mulf (k1_pay1 x0 x1) (k1_pay1 x0 x1) (reduces_S10000x128_S128.lift (ix1 q) p) = _
  refine Finset.sum_congr rfl fun p _ => ?_
  rw [lift_eq, mulf_apply, sum_eq]

/-- A block of the first result is the same block of the entrywise sum. -/
theorem block_sum (x0 x1 : Vec Ideal S10000x128 .f32) (a r : S100000x128.Idx → EReal) (e : S10000x128.Idx → S100000x128.Idx)
    (h0 : ∀ y, x0 y = a (e y)) (h1 : ∀ y, x1 y = r (e y)) (j : S10000x128.Idx) :
    k1_pay1 x0 x1 j = addRows a r (e j) := by
  rw [sum_eq]
  show x0 j + x1 j = a (e j) + r (e j)
  rw [h0, h1]

/-- The one row a point writes to the second result is that tile's row of the column sums. -/
theorem block_colsum (x0 x1 : Vec Ideal S10000x128 .f32) (a r : S100000x128.Idx → EReal) (e : S10000x128.Idx → S100000x128.Idx)
    (T : Fin 10) (h0 : ∀ y, x0 y = a (e y)) (h1 : ∀ y, x1 y = r (e y))
    (he0 : ∀ y : S10000x128.Idx, ((e y) 0).val = T.val * 10000 + (y 0).val) (he1 : ∀ y : S10000x128.Idx, ((e y) 1).val = (y 1).val)
    (j : S1x1x128.Idx) (i : S10x1x128.Idx) (hi0 : (i 0).val = T.val) (hi2 : (i 2).val = (j 2).val) :
    k1_pay2 x0 x1 j = tileSums (addRows a r) i := by
  obtain ⟨u, v, q, rfl⟩ : ∃ (u v : Fin 1) (q : Fin 128), j = ix3 u v q := ⟨j 0, j 1, j 2, eq_ix3 j⟩
  rw [colsum_apply]
  unfold tileSums addRows
  refine Finset.sum_congr rfl fun p _ => ?_
  have hidx : e (ix2 p q) = ix2 (rowIn (i 0) p) (i 2) := by
    funext b
    match b with
    | ⟨0, _⟩ => exact Fin.ext (by show ((e (ix2 p q)) 0).val = (i 0).val * 10000 + p.val; rw [he0, hi0])
    | ⟨1, _⟩ => exact Fin.ext (by show ((e (ix2 p q)) 1).val = (i 2).val; rw [he1, hi2])
  rw [h0, h1, hidx]
  rfl

/-- The one row a point writes to the third result is that tile's row of the column sums of squares. -/
theorem block_colsqsum (x0 x1 : Vec Ideal S10000x128 .f32) (a r : S100000x128.Idx → EReal) (e : S10000x128.Idx → S100000x128.Idx)
    (T : Fin 10) (h0 : ∀ y, x0 y = a (e y)) (h1 : ∀ y, x1 y = r (e y))
    (he0 : ∀ y : S10000x128.Idx, ((e y) 0).val = T.val * 10000 + (y 0).val) (he1 : ∀ y : S10000x128.Idx, ((e y) 1).val = (y 1).val)
    (j : S1x1x128.Idx) (i : S10x1x128.Idx) (hi0 : (i 0).val = T.val) (hi2 : (i 2).val = (j 2).val) :
    k1_pay3 x0 x1 j = tileSqSums (addRows a r) i := by
  obtain ⟨u, v, q, rfl⟩ : ∃ (u v : Fin 1) (q : Fin 128), j = ix3 u v q := ⟨j 0, j 1, j 2, eq_ix3 j⟩
  rw [colsqsum_apply]
  unfold tileSqSums addRows
  refine Finset.sum_congr rfl fun p _ => ?_
  have hidx : e (ix2 p q) = ix2 (rowIn (i 0) p) (i 2) := by
    funext b
    match b with
    | ⟨0, _⟩ => exact Fin.ext (by show ((e (ix2 p q)) 0).val = (i 0).val * 10000 + p.val; rw [he0, hi0])
    | ⟨1, _⟩ => exact Fin.ext (by show ((e (ix2 p q)) 1).val = (i 2).val; rw [he1, hi2])
  rw [h0, h1, hidx]
  rfl

/-- The index maps over the grid: every window is at block row `t`, the other block coordinates 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0 :=
  (by decide +kernel : ∀ t : Fin grid1.N, _)

variable (V : (c : Dev nD) → (b : Ref sig .tc) → Buf (Elt Ideal) ((c : Thread nD τ).loc b))

/-- The two input blocks at point `t` are the arrays at the block's place. -/
theorem in0 (c : Dev nD) (t : Fin cfg1.N) (y : S10000x128.Idx) :
    iblk1 V c 0 t y = V c main_v50 (((cfg1.win 2).blk t).view.emb y) := by
  obtain ⟨e00, e01, e10, e11, e20, e21, -⟩ := index_facts t
  show V c main_v50 (((cfg1.win 0).blk t).view.emb y) = V c main_v50 (((cfg1.win 2).blk t).view.emb y)
  refine congrArg _ (funext fun a => Fin.ext ?_)
  match a with
  | ⟨0, _⟩ => show win1_0.index t (0 : Fin 2) * 10000 + 1 * (y 0).val = win1_2.index t (0 : Fin 2) * 10000 + 1 * (y 0).val; omega
  | ⟨1, _⟩ => show win1_0.index t (1 : Fin 2) * 128 + 1 * (y 1).val = win1_2.index t (1 : Fin 2) * 128 + 1 * (y 1).val; omega

theorem in1 (c : Dev nD) (t : Fin cfg1.N) (y : S10000x128.Idx) :
    iblk1 V c 1 t y = V c main_v4_1 (((cfg1.win 2).blk t).view.emb y) := by
  obtain ⟨e00, e01, e10, e11, e20, e21, -⟩ := index_facts t
  show V c main_v4_1 (((cfg1.win 1).blk t).view.emb y) = V c main_v4_1 (((cfg1.win 2).blk t).view.emb y)
  refine congrArg _ (funext fun a => Fin.ext ?_)
  match a with
  | ⟨0, _⟩ => show win1_1.index t (0 : Fin 2) * 10000 + 1 * (y 0).val = win1_2.index t (0 : Fin 2) * 10000 + 1 * (y 0).val; omega
  | ⟨1, _⟩ => show win1_1.index t (1 : Fin 2) * 128 + 1 * (y 1).val = win1_2.index t (1 : Fin 2) * 128 + 1 * (y 1).val; omega

/-- What point `t` writes back to the first result is block `t` of the entrywise sum. -/
theorem flushed_sum (c : Dev nD) (t : Fin cfg1.N) :
    (dat1 V c).flushed 2 t = ((cfg1.win 2).blk t).view.read (Elt Ideal) (addRows (V c main_v50) (V c main_v4_1)) := by
  show (cfg1.win 2).cut (grid1.coords t) ((dat1 V c).after 2 t) = _
  rw [after1_2]
  unfold out1_2
  rw [View.canon_unit_zero zeros2]
  simp only [View.ld_unit_zero (S := S10000x128) zeros2]
  funext j
  exact block_sum (iblk1 V c 0 t) (iblk1 V c 1 t) (V c main_v50) (V c main_v4_1)
    (fun y => ((cfg1.win 2).blk t).view.emb y) (in0 V c t) (in1 V c t) j

/-- The place of a row block in the array, coordinate by coordinate. -/
theorem emb_rows (t : Fin cfg1.N) (y : S10000x128.Idx) :
    ((((cfg1.win 2).blk t).view.emb y) 0).val = t.val * 10000 + (y 0).val
    ∧ ((((cfg1.win 2).blk t).view.emb y) 1).val = (y 1).val := by
  obtain ⟨e00, e01, e10, e11, e20, e21, -⟩ := index_facts t
  constructor
  · show win1_2.index t (0 : Fin 2) * 10000 + 1 * (y 0).val = t.val * 10000 + (y 0).val; omega
  · show win1_2.index t (1 : Fin 2) * 128 + 1 * (y 1).val = (y 1).val; omega

/-- What point `t` writes back to the second result is row `t` of the per-tile column sums. -/
theorem flushed_colsum (c : Dev nD) (t : Fin cfg1.N) :
    (dat1 V c).flushed 3 t = ((cfg1.win 3).blk t).view.read (Elt Ideal) (tileSums (addRows (V c main_v50) (V c main_v4_1))) := by
  show (cfg1.win 3).cut (grid1.coords t) ((dat1 V c).after 3 t) = _
  rw [after1_3]
  unfold out1_3
  rw [View.canon_unit_zero zeros3]
  simp only [View.ld_unit_zero (S := S10000x128) zeros2]
  obtain ⟨-, -, -, -, -, -, e30, e31, e32, -⟩ := index_facts t
  funext j
  refine block_colsum (iblk1 V c 0 t) (iblk1 V c 1 t) (V c main_v50) (V c main_v4_1)
    (fun y => ((cfg1.win 2).blk t).view.emb y) ⟨t.val, by have := t.isLt; have hN : cfg1.N = 10 := N_1; omega⟩
    (in0 V c t) (in1 V c t) (fun y => (emb_rows t y).1) (fun y => (emb_rows t y).2) j (((cfg1.win 3).blk t).view.emb j) ?_ ?_
  · show win1_3.index t (0 : Fin 3) * 1 + 1 * (j 0).val = t.val
    have hj0 : (j 0).val < 1 := (j 0).isLt
    omega
  · show win1_3.index t (2 : Fin 3) * 128 + 1 * (j 2).val = (j 2).val
    omega

/-- What point `t` writes back to the third result is row `t` of the per-tile column sums of squares. -/
theorem flushed_colsqsum (c : Dev nD) (t : Fin cfg1.N) :
    (dat1 V c).flushed 4 t = ((cfg1.win 4).blk t).view.read (Elt Ideal) (tileSqSums (addRows (V c main_v50) (V c main_v4_1))) := by
  show (cfg1.win 4).cut (grid1.coords t) ((dat1 V c).after 4 t) = _
  rw [after1_4]
  unfold out1_4
  rw [View.canon_unit_zero zeros3]
  simp only [View.ld_unit_zero (S := S10000x128) zeros2]
  obtain ⟨-, -, -, -, -, -, -, -, -, e40, e41, e42⟩ := index_facts t
  funext j
  refine block_colsqsum (iblk1 V c 0 t) (iblk1 V c 1 t) (V c main_v50) (V c main_v4_1)
    (fun y => ((cfg1.win 2).blk t).view.emb y) ⟨t.val, by have := t.isLt; have hN : cfg1.N = 10 := N_1; omega⟩
    (in0 V c t) (in1 V c t) (fun y => (emb_rows t y).1) (fun y => (emb_rows t y).2) j (((cfg1.win 4).blk t).view.emb j) ?_ ?_
  · show win1_4.index t (0 : Fin 3) * 1 + 1 * (j 0).val = t.val
    have hj0 : (j 0).val < 1 := (j 0).isLt
    omega
  · show win1_4.index t (2 : Fin 3) * 128 + 1 * (j 2).val = (j 2).val
    omega

/-- Membership in a block of the first result, coordinate by coordinate. -/
theorem mem_blk_sum (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v51_0).slice (win1_2.rect t)).set ↔ _
  rw [View.set_slice_whole, Rect.mem_set_unit]
  exact Iff.rfl

theorem mem_blk_colsum (t : Fin cfg1.N) (i : S10x1x128.Idx) :
    i ∈ ((cfg1.win 3).blk t).view.set ↔ ∀ a : Fin 3, win1_3.index t a * S1x1x128.size a ≤ (i a).val
      ∧ (i a).val < win1_3.index t a * S1x1x128.size a + S1x1x128.size a := by
  show i ∈ ((View.whole main_v51_1).slice (win1_3.rect t)).set ↔ _
  rw [View.set_slice_whole, Rect.mem_set_unit]
  exact Iff.rfl

theorem mem_blk_colsqsum (t : Fin cfg1.N) (i : S10x1x128.Idx) :
    i ∈ ((cfg1.win 4).blk t).view.set ↔ ∀ a : Fin 3, win1_4.index t a * S1x1x128.size a ≤ (i a).val
      ∧ (i a).val < win1_4.index t a * S1x1x128.size a + S1x1x128.size a := by
  show i ∈ ((View.whole main_v51_2).slice (win1_4.rect t)).set ↔ _
  rw [View.set_slice_whole, Rect.mem_set_unit]
  exact Iff.rfl

/-- Row `r` of the first result is in the block of point `r / 10000`. -/
theorem cover_sum (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 10000, by rw [show cfg1.N = 10 from N_1]; omega⟩
  obtain ⟨-, -, -, -, e20, e21, -⟩ := index_facts t
  have ht : t.val = (i 0).val / 10000 := rfl
  refine ⟨t, flush1_2 t, ?_⟩
  rw [mem_blk_sum]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- Row `t` of the second result is the block of point `t`. -/
theorem cover_colsum (i : S10x1x128.Idx) : ∃ t : Fin cfg1.N, (cfg1.win 3).flush t = true ∧ i ∈ ((cfg1.win 3).blk t).view.set := by
  have hi0 : (i 0).val < 10 := (i 0).isLt
  have hi1 : (i 1).val < 1 := (i 1).isLt
  have hi2 : (i 2).val < 128 := (i 2).isLt
  let t : Fin cfg1.N := ⟨(i 0).val, by rw [show cfg1.N = 10 from N_1]; omega⟩
  obtain ⟨-, -, -, -, -, -, e30, e31, e32, -⟩ := index_facts t
  have ht : t.val = (i 0).val := rfl
  refine ⟨t, flush1_3 t, ?_⟩
  rw [mem_blk_colsum]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1 ≤ (i 1).val ∧ (i 1).val < win1_3.index t (1 : Fin 3) * 1 + 1; omega
  | ⟨2, _⟩ => show win1_3.index t (2 : Fin 3) * 128 ≤ (i 2).val ∧ (i 2).val < win1_3.index t (2 : Fin 3) * 128 + 128; omega

theorem cover_colsqsum (i : S10x1x128.Idx) : ∃ t : Fin cfg1.N, (cfg1.win 4).flush t = true ∧ i ∈ ((cfg1.win 4).blk t).view.set := by
  have hi0 : (i 0).val < 10 := (i 0).isLt
  have hi1 : (i 1).val < 1 := (i 1).isLt
  have hi2 : (i 2).val < 128 := (i 2).isLt
  let t : Fin cfg1.N := ⟨(i 0).val, by rw [show cfg1.N = 10 from N_1]; omega⟩
  obtain ⟨-, -, -, -, -, -, -, -, -, e40, e41, e42⟩ := index_facts t
  have ht : t.val = (i 0).val := rfl
  refine ⟨t, flush1_4 t, ?_⟩
  rw [mem_blk_colsqsum]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1 ≤ (i 1).val ∧ (i 1).val < win1_4.index t (1 : Fin 3) * 1 + 1; omega
  | ⟨2, _⟩ => show win1_4.index t (2 : Fin 3) * 128 ≤ (i 2).val ∧ (i 2).val < win1_4.index t (2 : Fin 3) * 128 + 128; omega

/-- THE THREE RESULT ARRAYS after the region. -/
theorem final_sum (c : Dev nD) : (dat1 V c).arrAt 2 cfg1.N = addRows (V c main_v50) (V c main_v4_1) :=
  (dat1 V c).arrAt_eq_of_cover 2 _ (fun t _ => flushed_sum V c t) cover_sum

theorem final_colsum (c : Dev nD) : (dat1 V c).arrAt 3 cfg1.N = tileSums (addRows (V c main_v50) (V c main_v4_1)) :=
  (dat1 V c).arrAt_eq_of_cover 3 _ (fun t _ => flushed_colsum V c t) cover_colsum

theorem final_colsqsum (c : Dev nD) : (dat1 V c).arrAt 4 cfg1.N = tileSqSums (addRows (V c main_v50) (V c main_v4_1)) :=
  (dat1 V c).arrAt_eq_of_cover 4 _ (fun t _ => flushed_colsqsum V c t) cover_colsqsum

end Cert.KernelIdeal.Stats

end
-- ==== Proof.Region2.lean ====
/-
  The third grid region (the normalisation), as one function of the arrays it finds.

  Every grid point `t` of ten reads rows `10000 t … 10000 t + 9999` of the [100000, 128] array `y` and the four
  [1, 128] rows `mean`, `istd`, `gamma`, `beta` whole, and writes the same rows of the result:
  entry `(i, j)` is `(y (i, j) - mean (0, j)) * istd (0, j) * gamma (0, j) + beta (0, j)`.
  The ten row blocks tile the result, so after the region the whole result array is that function of the five arrays.
-/
import proofs.«105547_j40785009443358_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Norm

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Column `j` of the one row of a [1, 128] array. -/
abbrev row0 (j : Fin 128) : S1x128.Idx := ix2 (0 : Fin 1) j

/-- The normalisation of the whole array, entry by entry. -/
def normalize (y : S100000x128.Idx → EReal) (mean istd g b : S1x128.Idx → EReal) : S100000x128.Idx → EReal :=
  fun i => (y i - mean (row0 (i 1))) * istd (row0 (i 1)) * g (row0 (i 1)) + b (row0 (i 1))

theorem zeros2 : (![0, 0] : Fin 2 → Nat) = fun _ => 0 := funext fun a => by fin_cases a <;> rfl

/-- The body's result at local coordinate `(p, q)` of a block. -/
theorem body_apply (x0 : Vec Ideal S10000x128 .f32) (x1 x2 x3 x4 : Vec Ideal S1x128 .f32) (p : Fin 10000) (q : Fin 128) :
    k2_pay1 x0 x1 x2 x3 x4 (ix2 p q)
      = (x0 (ix2 p q) - x1 (row0 q)) * x2 (row0 q) * x3 (row0 q) + x4 (row0 q) := by
  unfold k2_pay1
  simp only [shapeCast_self]
  rw [addf_apply, mulf_apply, mulf_apply, subf_apply, broadcastTo_1b_ab_apply, broadcastTo_1b_ab_apply,
    broadcastTo_1b_ab_apply, broadcastTo_1b_ab_apply]

/-- The index maps over the grid: the row-tiled windows are at block row `t`, block column 0; the four rows are at block (0, 0). -/
theorem index_facts : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

variable (V : (c : Dev nD) → (b : Ref sig .tc) → Buf (Elt Ideal) ((c : Thread nD τ).loc b))

/-- A block of the body's result is the same block of the normalisation, once each loaded block is identified with the
    array it was read from: `e` is the block's place in the array, and it keeps the column. -/
theorem block_eq (x0 : Vec Ideal S10000x128 .f32) (x1 x2 x3 x4 : Vec Ideal S1x128 .f32)
    (Y : S100000x128.Idx → EReal) (M I G B : S1x128.Idx → EReal) (e : S10000x128.Idx → S100000x128.Idx)
    (h0 : ∀ y, x0 y = Y (e y)) (h1 : x1 = M) (h2 : x2 = I) (h3 : x3 = G) (h4 : x4 = B)
    (hcol : ∀ y : S10000x128.Idx, ((e y) 1).val = (y 1).val) (j : S10000x128.Idx) :
    k2_pay1 x0 x1 x2 x3 x4 j = normalize Y M I G B (e j) := by
  subst h1 h2 h3 h4
  obtain ⟨p, q, rfl⟩ : ∃ (p : Fin 10000) (q : Fin 128), j = ix2 p q := ⟨j 0, j 1, eq_ix2 j⟩
  rw [body_apply, h0]
  unfold normalize
  have hc : row0 ((e (ix2 p q)) 1) = row0 q := congrArg row0 (Fin.ext (hcol (ix2 p q)))
  rw [hc]

/-- What point `t` writes back is block `t` of the normalisation of the arrays the region finds. -/
theorem flushed_eq (c : Dev nD) (t : Fin cfg2.N) :
    (dat2 V c).flushed 5 t = ((cfg2.win 5).blk t).view.read (Elt Ideal)
      (normalize (V c main_v51_0) (V c main_v59) (V c main_v66) (V c main_v67) (V c main_v68)) := by
  show (cfg2.win 5).cut (grid2.coords t) ((dat2 V c).after 5 t) = _
  rw [after2_5]
  unfold out2_5
  rw [View.canon_unit_zero zeros2]
  simp only [View.ld_unit_zero (S := S10000x128) zeros2, View.ld_unit_zero (S := S1x128) zeros2]
  obtain ⟨e00, e01, e50, e51, e10, e11, e20, e21, e30, e31, e40, e41⟩ := index_facts t
  funext j
  refine block_eq (iblk2 V c 0 t) (iblk2 V c 1 t) (iblk2 V c 2 t) (iblk2 V c 3 t) (iblk2 V c 4 t)
    (V c main_v51_0) (V c main_v59) (V c main_v66) (V c main_v67) (V c main_v68)
    (fun y => ((cfg2.win 5).blk t).view.emb y) ?_ ?_ ?_ ?_ ?_ ?_ j
  · intro y
    show V c main_v51_0 (((cfg2.win 0).blk t).view.emb y) = V c main_v51_0 (((cfg2.win 5).blk t).view.emb y)
    refine congrArg _ (funext fun a => Fin.ext ?_)
    match a with
    | ⟨0, _⟩ => show win2_0.index t (0 : Fin 2) * 10000 + 1 * (y 0).val = win2_5.index t (0 : Fin 2) * 10000 + 1 * (y 0).val; omega
    | ⟨1, _⟩ => show win2_0.index t (1 : Fin 2) * 128 + 1 * (y 1).val = win2_5.index t (1 : Fin 2) * 128 + 1 * (y 1).val; omega
  · funext y
    show V c main_v59 (((cfg2.win 1).blk t).view.emb y) = V c main_v59 y
    refine congrArg _ (funext fun a => Fin.ext ?_)
    match a with
    | ⟨0, _⟩ => show win2_1.index t (0 : Fin 2) * 1 + 1 * (y 0).val = (y 0).val; omega
    | ⟨1, _⟩ => show win2_1.index t (1 : Fin 2) * 128 + 1 * (y 1).val = (y 1).val; omega
  · funext y
    show V c main_v66 (((cfg2.win 2).blk t).view.emb y) = V c main_v66 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  · funext y
    show V c main_v67 (((cfg2.win 3).blk t).view.emb y) = V c main_v67 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  · funext y
    show V c main_v68 (((cfg2.win 4).blk t).view.emb y) = V c main_v68 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega
  · intro y
    show win2_5.index t (1 : Fin 2) * 128 + 1 * (y 1).val = (y 1).val
    omega

/-- An index of the result is in point `t`'s block iff each coordinate is in the block's range. -/
theorem mem_blk (t : Fin cfg2.N) (i : S100000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v69).slice (win2_5.rect t)).set ↔ _
  rw [View.set_slice_whole, Rect.mem_set_unit]
  exact Iff.rfl

/-- Row `r` is in the block of point `r / 10000`: the ten blocks tile the result. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  let t : Fin cfg2.N := ⟨(i 0).val / 10000, by rw [show cfg2.N = 10 from N_2]; omega⟩
  obtain ⟨-, -, e50, e51, -⟩ := index_facts t
  have ht : t.val = (i 0).val / 10000 := rfl
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 128 ≤ (i 1).val ∧ (i 1).val < win2_5.index t (1 : Fin 2) * 128 + 128; omega

/-- THE RESULT ARRAY after the region: the normalisation of the five arrays the region finds. -/
theorem final (c : Dev nD) :
    (dat2 V c).arrAt 5 cfg2.N = normalize (V c main_v51_0) (V c main_v59) (V c main_v66) (V c main_v67) (V c main_v68) :=
  (dat2 V c).arrAt_eq_of_cover 5 _ (fun t _ => flushed_eq V c t) cover

end Cert.KernelIdeal.Norm

end
-- ==== Proof.RealLaws.lean ====
/-
  The laws of real arithmetic that join the two programs, stated on the extended reals.

  * An extended real is "a real" when it is the image of a real number. Sums, products, differences, maxima, finite
    sums, quotients by a nonzero real and the reciprocal square root of a positive real stay real.
  * A sum over `a * b` consecutive indices is the sum over `a` tiles of the sums over the `b` indices of each tile:
    only commutativity and associativity of `+`, so it holds for every family of extended reals.
  * THE VARIANCE IDENTITY. For real numbers `y i` with mean `μ = (∑ y) / n` over `n` terms,
    `(∑ (y i - μ)²) / n = (∑ (y i)²) / n - μ²`. On the extended reals this needs every `y i` real: expanding the square
    distributes a product over a sum, which fails at an infinity.
-/
import Idealize.ShloMosaic.PureOps.Ideal
import Mathlib.Tactic.FieldSimp
import Mathlib.Tactic.Ring
import Mathlib.Algebra.BigOperators.Fin

noncomputable section

open scoped BigOperators

namespace Cert.Laws

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

/-- A finite sum of reals is a real. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real is a real. -/
theorem IsReal.div_coe {x : EReal} (hx : IsReal x) {n : ℝ} (hn : n ≠ 0) : IsReal (Ideal.div x (n : EReal)) := by
  rw [Ideal.div_coe hn]; exact hx.mul (isReal_coe _)

/-- The reciprocal square root of a positive real is a real. -/
theorem isReal_rsqrt_of_pos {r : ℝ} (hr : 0 < r) : IsReal (Ideal.rsqrt (r : EReal)) := by
  rw [Ideal.rsqrt_coe, if_neg (not_lt.mpr hr.le), if_neg hr.ne']
  exact isReal_coe _

/-- A sum over `a * b` consecutive indices, tile by tile. -/
theorem sum_tiles {M : Type*} [AddCommMonoid M] {a b n : ℕ} (h : a * b = n) (f : Fin n → M) :
    ∑ i, f i = ∑ t : Fin a, ∑ p : Fin b,
      f ⟨t.val * b + p.val, by
        have ht := t.isLt; have hp := p.isLt
        calc t.val * b + p.val < t.val * b + b := by omega
          _ = (t.val + 1) * b := by ring
          _ ≤ a * b := Nat.mul_le_mul_right b ht
          _ = n := h⟩ := by
  subst h
  rw [← Equiv.sum_comp finProdFinEquiv f, Fintype.sum_prod_type]
  refine Finset.sum_congr rfl fun t _ => Finset.sum_congr rfl fun p _ => congrArg f (Fin.ext ?_)
  show p.val + b * t.val = t.val * b + p.val
  ring

/-- THE VARIANCE IDENTITY on the extended reals, for real data: with `M` the mean,
    the mean of the squared deviations is the mean of the squares minus the square of the mean. -/
theorem variance_eq {ι : Type*} [Fintype ι] (Y : ι → EReal) (hY : ∀ i, IsReal (Y i)) (n : ℝ) (hn : n ≠ 0)
    (hcard : (Fintype.card ι : ℝ) = n) :
    Ideal.div (∑ i, (Y i - Ideal.div (∑ i, Y i) (n : EReal)) * (Y i - Ideal.div (∑ i, Y i) (n : EReal))) (n : EReal)
      = Ideal.div (∑ i, Y i * Y i) (n : EReal)
        - Ideal.div (∑ i, Y i) (n : EReal) * Ideal.div (∑ i, Y i) (n : EReal) := by
  choose y hy using hY
  have hYf : Y = fun i => (y i : EReal) := funext hy
  subst hYf
  set μ : ℝ := (∑ i, y i) * (1 / n) with hμ
  have hM : Ideal.div (∑ i, (y i : EReal)) (n : EReal) = (μ : EReal) := by
    rw [Ideal.div_coe hn, ← coe_sum, ← EReal.coe_mul]
  rw [hM]
  have h1 : ∀ i, ((y i : EReal) - (μ : EReal)) * ((y i : EReal) - (μ : EReal)) = (((y i - μ) * (y i - μ) : ℝ) : EReal) := by
    intro i; rw [← EReal.coe_sub, ← EReal.coe_mul]
  have h2 : ∀ i, (y i : EReal) * (y i : EReal) = ((y i * y i : ℝ) : EReal) := fun i => (EReal.coe_mul _ _).symm
  simp only [h1, h2]
  rw [← coe_sum, ← coe_sum, Ideal.div_coe hn, Ideal.div_coe hn, ← EReal.coe_mul, ← EReal.coe_mul, ← EReal.coe_mul,
    ← EReal.coe_sub]
  refine congrArg _ ?_
  have hexp : ∑ i, (y i - μ) * (y i - μ) = ∑ i, y i * y i - 2 * μ * ∑ i, y i + n * (μ * μ) := by
    have : ∀ i, (y i - μ) * (y i - μ) = y i * y i - 2 * μ * y i + μ * μ := fun i => by ring
    simp only [this, Finset.sum_add_distrib, Finset.sum_sub_distrib, ← Finset.mul_sum, Finset.sum_const, Finset.card_univ,
      nsmul_eq_mul, hcard]
    ring
  have hs : ∑ i, y i = n * μ := by rw [hμ]; field_simp
  rw [hexp, hs]
  field_simp
  ring

end Cert.Laws

end
-- ==== Proof.Finite.lean ====
/-
  Arrays of real numbers, and the operations that keep them so.

  An array of extended reals whose every entry is a real stays such under the entrywise sum, product, difference and maximum,
  under every re-layout (each entry of the result is an entry of the operand), under a gather (likewise), under an accumulating
  scatter (each entry is the operand's plus a finite sum of updates), under a matrix product (finite sums of products), and
  under `where (x > 0) (1 / sqrt x) 0`: the reciprocal square root is taken only of positive reals.
-/
import proofs.«105547_j40785009443358_2_alg».proof.Proof.RealLaws
import Idealize.ShloMosaic.Lib.ValueIdx
import Idealize.ShloMosaic.PureOps.Ideal.Laws

noncomputable section

open scoped BigOperators

namespace Cert.Laws

open Idealize.ShloMosaic Idealize.ShloMosaic.ValueIdx

/-- The zero word, the word of 1.0 and the word of 100000.0 as extended reals. -/
theorem ofBits_zero : Ideal.ofBits .f32 0x00000000#32 = 0 := Ideal.ofBits_zero_f32

theorem ofBits_one : Ideal.ofBits .f32 0x3F800000#32 = 1 := by
  simp [Ideal.ofBits, Ideal.ieee, -EReal.coe_mul]; norm_num

theorem ofBits_100000 : Ideal.ofBits .f32 0x47C35000#32 = ((100000 : ℝ) : EReal) := by
  simp [Ideal.ofBits, Ideal.ieee, -EReal.coe_mul]; norm_num

/-- Every entry of an array is a real. -/
def AllReal {s : Shape} (v : s.Idx → EReal) : Prop := ∀ i, IsReal (v i)

section Ops
variable {s : Shape} {φ : FTy}

theorem AllReal.addf {a b : FVec Ideal s φ} (ha : AllReal a) (hb : AllReal b) : AllReal (addf a b) :=
  fun i => (ha i).add (hb i)

theorem AllReal.mulf {a b : FVec Ideal s φ} (ha : AllReal a) (hb : AllReal b) : AllReal (mulf a b) :=
  fun i => (ha i).mul (hb i)

theorem AllReal.subf {a b : FVec Ideal s φ} (ha : AllReal a) (hb : AllReal b) : AllReal (subf a b) :=
  fun i => (ha i).sub (hb i)

theorem AllReal.maximumf {a b : FVec Ideal s φ} (ha : AllReal a) (hb : AllReal b) : AllReal (maximumf a b) :=
  fun i => (ha i).max (hb i)

theorem allReal_constant_zero : AllReal (constant (F := Ideal) s .f32 0x00000000#32) := fun i => by
  rw [constant_apply, ofBits_zero]; exact isReal_zero

theorem allReal_constant_one : AllReal (constant (F := Ideal) s .f32 0x3F800000#32) := fun i => by
  rw [constant_apply, ofBits_one]; exact isReal_one

end Ops

/-- A broadcast's entries are entries of its operand. -/
theorem AllReal.broadcastInDim {s t : Shape} (dims : Fin s.rank → Fin t.rank) (h : s.BroadcastsInDim t dims) {x : s.Idx → EReal}
    (hx : AllReal x) : AllReal (broadcastInDim t dims h x) := fun _ => hx _

/-- A gather's entries are entries of its operand. -/
theorem AllReal.gather {s si t : Shape} {w : Nat} (d : GatherDims s si t) {x : s.Idx → EReal} (idx : IVec si w)
    (hx : AllReal x) : AllReal (Host.gather d x idx) := fun _ => hx _

/-- An accumulating scatter of reals into reals. -/
theorem AllReal.scatterAdd {s si u : Shape} {w : Nat} (d : ScatterDims s si u) {x : FVec Ideal s .f32} (idx : IVec si w)
    {upd : FVec Ideal u .f32} (hx : AllReal x) (hu : AllReal upd) : AllReal (Host.scatterAdd d x idx upd) := fun i => by
  show IsReal (Ideal.hostScatterAdd d x idx upd i)
  unfold Ideal.hostScatterAdd
  exact (hx i).add (IsReal.sum _ _ fun j _ => hu j)

/-- A matrix product of reals. -/
theorem AllReal.dotGeneral {sl sr so : Shape} (d : DotDims sl sr so) (prec : Option ContractPrecision)
    {l : FVec Ideal sl .f32} {r : FVec Ideal sr .f32} (hl : AllReal l) (hr : AllReal r) :
    AllReal (Host.dotGeneral d prec l r) := fun j => by
  simp only [Host.dotGeneral]
  rw [Ideal.dotGeneral_apply]
  exact IsReal.sum _ _ fun k _ => (hl _).mul (hr _)

/-- `where (x > z) (1 / sqrt x) z'` with `z` zero: a real wherever `x` and `z'` are. -/
theorem AllReal.invSqrtWhere {s : Shape} {x z z' : FVec Ideal s .f32} (hx : AllReal x) (hz : ∀ i, z i = 0) (hz' : AllReal z') :
    AllReal (select (cmpf .ogt x z) (Host.rsqrt x) z') := fun i => by
  rw [select_apply, cmpf_apply]
  show IsReal (Scalar.select (Ideal.cmp .ogt (x i) (z i)) (Ideal.rsqrt (x i)) (z' i))
  obtain ⟨r, hr⟩ := hx i
  rw [hr, hz i]
  by_cases h : (0 : ℝ) < r
  · have hc : Ideal.cmp .ogt (r : EReal) 0 = 1#1 := by
      have : (0 : EReal) < (r : EReal) := by exact_mod_cast h
      simp [Ideal.cmp, this]
    rw [hc, select_one]
    exact isReal_rsqrt_of_pos h
  · have hc : Ideal.cmp .ogt (r : EReal) 0 = 0#1 := by
      have : ¬ (0 : EReal) < (r : EReal) := by exact_mod_cast h
      simp [Ideal.cmp, this]
    rw [hc, select_zero]
    exact hz' i

end Cert.Laws

end
-- ==== Proof.Glue.lean ====
/-
  The neighbourhood aggregation as a function of the transformed features, and the finiteness of the reference's `y`.

  Both programs compute, from the edge list alone, the in-degrees (a scatter of ones), `dis = where (deg > 0) (1 / sqrt deg) 0`,
  and the edge weights `dis[src] * dis[dst]`; then from the transformed features `h` the messages `h[src] * weight`, their
  scatter-add over `dst`, and the bias. `aggregate h ei b` is that last part as one function of `h`: the reference applies it
  to its own `x · W`.

  Every entry of `y = aggregate (x · W) ei b + max (x · W' + b') 0` is a real when the float inputs are: the degrees are finite
  sums of ones, the reciprocal square root is taken only where the degree is positive, a gather only picks entries, and the rest
  are finite sums and products.
-/
import proofs.«105547_j40785009443358_2_alg».proof.Proof.RefRead
import proofs.«105547_j40785009443358_2_alg».proof.Proof.Finite

set_option maxRecDepth 16384

noncomputable section

namespace Cert.ReferenceIdeal.Agg

open Cert.ReferenceIdeal Cert.ReferenceIdeal.ReadP Cert.Laws
open Idealize.ShloMosaic Idealize.ShloMosaic.ValueIdx

/-- Messages `h[src] * weight`, scattered and added over `dst`, plus the bias. -/
def aggregate (h : FVec Ideal S100000x128 .f32) (ei : IVec S2x625000 32) (b : FVec Ideal S128 .f32) : FVec Ideal S100000x128 .f32 :=
  addf (F := Ideal) (Host.scatterAdd (F := Ideal) scatter_S100000x128_S725000x1_S725000x128_1_0_0_1 (val_main_v41 (F := Ideal)) (val_main_v42 (F := Ideal) ei)
      (mulf (F := Ideal) (Host.gather gather_S100000x128_S725000x1_S725000x128_1_0_n_n_0_1_1128 h (val_main_v36 (F := Ideal) ei)) (val_main_v39 (F := Ideal) ei)))
    (val_main_v45 (F := Ideal) b)

/-- The reference's aggregate is `aggregate` of its own `x · W`. -/
theorem v46_eq (x0 : FVec Ideal S100000x128 .f32) (x1 : IVec S2x625000 32) (x2 : FVec Ideal S128x128 .f32) (x3 : FVec Ideal S128 .f32) :
    val_main_v46 (F := Ideal) x0 x1 x2 x3 = aggregate (val_main_v30 (F := Ideal) x0 x2) x1 x3 := rfl

/-- The in-degrees are reals. -/
theorem deg_real (ei : IVec S2x625000 32) : AllReal (val_main_v10 (F := Ideal) ei) := by
  unfold val_main_v10
  refine AllReal.scatterAdd _ _ ?_ ?_
  · unfold val_main_v8 val_main_cst_0; exact AllReal.broadcastInDim _ _ allReal_constant_zero
  · unfold val_main_v7 val_main_cst; exact AllReal.broadcastInDim _ _ allReal_constant_one

/-- `where (deg > 0) (1 / sqrt deg) 0` is real. -/
theorem dis_real (ei : IVec S2x625000 32) : AllReal (val_main_v14 (F := Ideal) ei) := by
  unfold val_main_v14 val_main_v12 val_main_v13
  refine AllReal.invSqrtWhere (deg_real ei) (fun i => ?_) ?_
  · unfold val_main_v11 val_main_cst_1
    show Ideal.ofBits .f32 0x00000000#32 = 0
    exact ofBits_zero
  · unfold val_main_call0_v1 val_main_call0_v0 val_main_cst_2
    exact AllReal.broadcastInDim _ _ allReal_constant_zero

/-- The edge weights are reals. -/
theorem weight_real (ei : IVec S2x625000 32) : AllReal (val_main_v39 (F := Ideal) ei) := by
  unfold val_main_v39 val_main_v38 val_main_v29 val_main_v21 val_main_v28
  exact AllReal.broadcastInDim _ _ (AllReal.broadcastInDim _ _
    ((AllReal.gather _ _ (dis_real ei)).mulf (AllReal.gather _ _ (dis_real ei))))

/-- The aggregate of real features with a real bias is real. -/
theorem aggregate_real {h : FVec Ideal S100000x128 .f32} (ei : IVec S2x625000 32) {b : FVec Ideal S128 .f32}
    (hh : AllReal h) (hb : AllReal b) : AllReal (aggregate h ei b) := by
  unfold aggregate
  refine AllReal.addf (AllReal.scatterAdd _ _ ?_ ((AllReal.gather _ _ hh).mulf (weight_real ei))) ?_
  · unfold val_main_v41 val_main_cst_8; exact AllReal.broadcastInDim _ _ allReal_constant_zero
  · unfold val_main_v45 val_main_v44; exact AllReal.broadcastInDim _ _ (AllReal.broadcastInDim _ _ hb)

/-- THE REFERENCE'S `y` IS REAL when its float arguments are. -/
theorem y_real (x0 : FVec Ideal S100000x128 .f32) (x1 : IVec S2x625000 32) (x2 : FVec Ideal S128x128 .f32) (x3 : FVec Ideal S128 .f32)
    (x4 : FVec Ideal S128x128 .f32) (x5 : FVec Ideal S128 .f32)
    (h0 : AllReal x0) (h2 : AllReal x2) (h3 : AllReal x3) (h4 : AllReal x4) (h5 : AllReal x5) :
    AllReal (val_main_v52 (F := Ideal) x0 x1 x2 x3 x4 x5) := by
  unfold val_main_v52
  refine AllReal.addf ?_ ?_
  · rw [v46_eq]
    refine aggregate_real x1 ?_ h3
    unfold val_main_v30
    exact AllReal.dotGeneral _ _ h0 h2
  · unfold val_main_v51 val_main_v50 val_main_v47 val_main_v49 val_main_v48 val_main_call1_v0 val_main_call1_cst
    exact ((AllReal.dotGeneral _ _ h0 h4).addf (AllReal.broadcastInDim _ _ (AllReal.broadcastInDim _ _ h5))).maximumf
      (AllReal.broadcastInDim _ _ allReal_constant_zero)

end Cert.ReferenceIdeal.Agg

end
-- ==== Proof.AggTerm.lean ====
/-
  The aggregation step as the idealized kernel spells it.

  The host operations between the first two regions, composed into one term of three operands: the transformed features `h`
  (the first region's first result), the edge list `ei` and the bias `b`. From `ei`: `src` and `dst` (its two rows, each
  followed by the self loops `0 … 99999`), the in-degrees (ones scattered and added over `dst`),
  `dis = where (deg > 0) (1 / sqrt deg) 0`, and the edge weights `dis[src] * dis[dst]` (a negative index counts from the
  end). Then `h[src] * weight`, scattered and added over `dst` into zeros, plus `b` on every row.
  The term is the operations' own composition: nothing is simplified.
-/
import proofs.«105547_j40785009443358_2_alg».proof.Proof.Gen.KernelIdeal

set_option maxRecDepth 16384

noncomputable section

namespace Cert.KernelIdeal

open Cert.KernelIdeal Cert.KernelIdeal.Gen Idealize.ShloMosaic Idealize.ShloMosaic.TcCoe Idealize.SL.Sem

variable {F : FTy → Type} [FloatOps F]

/-- Messages `h[src] * dis[src] * dis[dst]` scattered and added over `dst`, plus the bias. -/
def aggregateTerm (h : FVec F S100000x128 .f32) (ei : IVec S2x625000 32) (b : FVec F S128 .f32) : FVec F S100000x128 .f32 :=
  (addf (Host.scatterAdd scatter_S100000x128_S725000x1_S725000x128_1_0_0_1 (broadcastInDim S100000x128 ![] bcast_S_S100000x128 (constant S_ .f32 0x00000000#32)) (broadcastInDim S725000x1 ![0] bcast_S725000_S725000x1_0 (concatenate S725000 0 [⟨S625000, (shapeCast _ (extractStridedSlice S1x625000 ![1, 0] ei slices_S2x625000_S1x625000_1_0) shapeCasts_S1x625000_S625000)⟩, ⟨S100000, (iotaInDim S100000 32 0)⟩] concatenates_S625000_S100000_S725000_d0)) (mulf (Host.gather gather_S100000x128_S725000x1_S725000x128_1_0_n_n_0_1_1128 h (broadcastInDim S725000x1 ![0] bcast_S725000_S725000x1_0 (select (cmpi .slt (concatenate S725000 0 [⟨S625000, (shapeCast _ (extractStridedSlice S1x625000 ![0, 0] ei slices_S2x625000_S1x625000_0_0) shapeCasts_S1x625000_S625000)⟩, ⟨S100000, (iotaInDim S100000 32 0)⟩] concatenates_S625000_S100000_S725000_d0) (broadcastInDim S725000 ![] bcast_S_S725000 (constantI S_ 32 0#32))) (addi (concatenate S725000 0 [⟨S625000, (shapeCast _ (extractStridedSlice S1x625000 ![0, 0] ei slices_S2x625000_S1x625000_0_0) shapeCasts_S1x625000_S625000)⟩, ⟨S100000, (iotaInDim S100000 32 0)⟩] concatenates_S625000_S100000_S725000_d0) (broadcastInDim S725000 ![] bcast_S_S725000 (constantI S_ 32 100000#32))) (concatenate S725000 0 [⟨S625000, (shapeCast _ (extractStridedSlice S1x625000 ![0, 0] ei slices_S2x625000_S1x625000_0_0) shapeCasts_S1x625000_S625000)⟩, ⟨S100000, (iotaInDim S100000 32 0)⟩] concatenates_S625000_S100000_S725000_d0)))) (broadcastInDim S725000x128 ![0, 1] bcast_S725000x1_S725000x128_0_1 (broadcastInDim S725000x1 ![0] bcast_S725000_S725000x1_0 (mulf (Host.gather gather_S100000_S725000x1_S725000_n_0_n_n_0_1_1 (select (cmpf (F := F) .ogt (Host.scatterAdd scatter_S100000_S725000x1_S725000_n_0_0_1 (broadcastInDim S100000 ![] bcast_S_S100000 (constant S_ .f32 0x00000000#32)) (broadcastInDim S725000x1 ![0] bcast_S725000_S725000x1_0 (concatenate S725000 0 [⟨S625000, (shapeCast _ (extractStridedSlice S1x625000 ![1, 0] ei slices_S2x625000_S1x625000_1_0) shapeCasts_S1x625000_S625000)⟩, ⟨S100000, (iotaInDim S100000 32 0)⟩] concatenates_S625000_S100000_S725000_d0)) (broadcastInDim S725000 ![] bcast_S_S725000 (constant S_ .f32 0x3F800000#32))) (broadcastInDim S100000 ![] bcast_S_S100000 (constant S_ .f32 0x00000000#32))) (Host.rsqrt (Host.scatterAdd scatter_S100000_S725000x1_S725000_n_0_0_1 (broadcastInDim S100000 ![] bcast_S_S100000 (constant S_ .f32 0x00000000#32)) (broadcastInDim S725000x1 ![0] bcast_S725000_S725000x1_0 (concatenate S725000 0 [⟨S625000, (shapeCast _ (extractStridedSlice S1x625000 ![1, 0] ei slices_S2x625000_S1x625000_1_0) shapeCasts_S1x625000_S625000)⟩, ⟨S100000, (iotaInDim S100000 32 0)⟩] concatenates_S625000_S100000_S725000_d0)) (broadcastInDim S725000 ![] bcast_S_S725000 (constant S_ .f32 0x3F800000#32)))) (broadcastInDim S100000 ![] bcast_S_S100000 (id (constant S_ .f32 0x00000000#32)))) (broadcastInDim S725000x1 ![0] bcast_S725000_S725000x1_0 (select (cmpi .slt (concatenate S725000 0 [⟨S625000, (shapeCast _ (extractStridedSlice S1x625000 ![0, 0] ei slices_S2x625000_S1x625000_0_0) shapeCasts_S1x625000_S625000)⟩, ⟨S100000, (iotaInDim S100000 32 0)⟩] concatenates_S625000_S100000_S725000_d0) (broadcastInDim S725000 ![] bcast_S_S725000 (constantI S_ 32 0#32))) (addi (concatenate S725000 0 [⟨S625000, (shapeCast _ (extractStridedSlice S1x625000 ![0, 0] ei slices_S2x625000_S1x625000_0_0) shapeCasts_S1x625000_S625000)⟩, ⟨S100000, (iotaInDim S100000 32 0)⟩] concatenates_S625000_S100000_S725000_d0) (broadcastInDim S725000 ![] bcast_S_S725000 (constantI S_ 32 100000#32))) (concatenate S725000 0 [⟨S625000, (shapeCast _ (extractStridedSlice S1x625000 ![0, 0] ei slices_S2x625000_S1x625000_0_0) shapeCasts_S1x625000_S625000)⟩, ⟨S100000, (iotaInDim S100000 32 0)⟩] concatenates_S625000_S100000_S725000_d0)))) (Host.gather gather_S100000_S725000x1_S725000_n_0_n_n_0_1_1 (select (cmpf (F := F) .ogt (Host.scatterAdd scatter_S100000_S725000x1_S725000_n_0_0_1 (broadcastInDim S100000 ![] bcast_S_S100000 (constant S_ .f32 0x00000000#32)) (broadcastInDim S725000x1 ![0] bcast_S725000_S725000x1_0 (concatenate S725000 0 [⟨S625000, (shapeCast _ (extractStridedSlice S1x625000 ![1, 0] ei slices_S2x625000_S1x625000_1_0) shapeCasts_S1x625000_S625000)⟩, ⟨S100000, (iotaInDim S100000 32 0)⟩] concatenates_S625000_S100000_S725000_d0)) (broadcastInDim S725000 ![] bcast_S_S725000 (constant S_ .f32 0x3F800000#32))) (broadcastInDim S100000 ![] bcast_S_S100000 (constant S_ .f32 0x00000000#32))) (Host.rsqrt (Host.scatterAdd scatter_S100000_S725000x1_S725000_n_0_0_1 (broadcastInDim S100000 ![] bcast_S_S100000 (constant S_ .f32 0x00000000#32)) (broadcastInDim S725000x1 ![0] bcast_S725000_S725000x1_0 (concatenate S725000 0 [⟨S625000, (shapeCast _ (extractStridedSlice S1x625000 ![1, 0] ei slices_S2x625000_S1x625000_1_0) shapeCasts_S1x625000_S625000)⟩, ⟨S100000, (iotaInDim S100000 32 0)⟩] concatenates_S625000_S100000_S725000_d0)) (broadcastInDim S725000 ![] bcast_S_S725000 (constant S_ .f32 0x3F800000#32)))) (broadcastInDim S100000 ![] bcast_S_S100000 (id (constant S_ .f32 0x00000000#32)))) (broadcastInDim S725000x1 ![0] bcast_S725000_S725000x1_0 (select (cmpi .slt (concatenate S725000 0 [⟨S625000, (shapeCast _ (extractStridedSlice S1x625000 ![1, 0] ei slices_S2x625000_S1x625000_1_0) shapeCasts_S1x625000_S625000)⟩, ⟨S100000, (iotaInDim S100000 32 0)⟩] concatenates_S625000_S100000_S725000_d0) (broadcastInDim S725000 ![] bcast_S_S725000 (constantI S_ 32 0#32))) (addi (concatenate S725000 0 [⟨S625000, (shapeCast _ (extractStridedSlice S1x625000 ![1, 0] ei slices_S2x625000_S1x625000_1_0) shapeCasts_S1x625000_S625000)⟩, ⟨S100000, (iotaInDim S100000 32 0)⟩] concatenates_S625000_S100000_S725000_d0) (broadcastInDim S725000 ![] bcast_S_S725000 (constantI S_ 32 100000#32))) (concatenate S725000 0 [⟨S625000, (shapeCast _ (extractStridedSlice S1x625000 ![1, 0] ei slices_S2x625000_S1x625000_1_0) shapeCasts_S1x625000_S625000)⟩, ⟨S100000, (iotaInDim S100000 32 0)⟩] concatenates_S625000_S100000_S725000_d0))))))))) (broadcastInDim S100000x128 ![0, 1] bcast_S1x128_S100000x128_0_1 (broadcastInDim S1x128 ![1] bcast_S128_S1x128_1 b)))

end Cert.KernelIdeal

end
-- ==== Proof.HostTerms.lean ====
/-
  The idealized kernel's small host computations, as functions.

  Before the first region: the two [128, 128] weight matrices joined side by side into one [128, 256] matrix, and a zero row of
  128 joined with the residual bias into one [1, 256] row. Before the third region: from a [10, 1, 128] array of per-tile
  column sums, the row `(0 + ∑ t < 10, s (t, 0, j)) / 100000`; and from the tile sums of `y` and of `y * y`, the row
  `1 / sqrt (E[y²] - E[y] * E[y] + ε)`.
-/
import proofs.«105547_j40785009443358_2_alg».proof.Proof.Gen.KernelIdeal
import Idealize.ShloMosaic.PureOps.Ideal

noncomputable section

namespace Cert.KernelIdeal.Fold

open Cert.KernelIdeal Cert.KernelIdeal.Gen Idealize.ShloMosaic Idealize.ShloMosaic.TcCoe Idealize.SL.Sem

/-- The two weight matrices side by side. -/
def joined (w rw : S128x128.Idx → EReal) : S128x256.Idx → EReal :=
  concatenate S128x256 1 [⟨S128x128, w⟩, ⟨S128x128, rw⟩] concatenates_S128x128_S128x128_S128x256_d1

/-- A zero row and the residual bias joined, as a [1, 256] row. -/
def joinedBias (rb : S128.Idx → EReal) : S1x256.Idx → EReal :=
  shapeCast S1x256 (concatenate S256 0 [⟨S128, broadcastInDim S128 ![] bcast_S_S128 (constant (F := Ideal) S_ .f32 0x00000000#32)⟩, ⟨S128, rb⟩]
    concatenates_S128_S128_S256_d0) shapeCasts_S256_S1x256

/-- A [10, 1, 128] array of tile sums, summed over the tiles and divided by the row count: a [1, 128] row. -/
def tileMean (s : S10x1x128.Idx → EReal) : S1x128.Idx → EReal :=
  Host.divf (F := Ideal)
    (broadcastInDim S1x128 ![1] bcast_S128_S1x128_1
      (Host.reduceAdd (F := Ideal) (shapeCast S10x128 s shapeCasts_S10x1x128_S10x128) (constant (F := Ideal) S_ .f32 0x00000000#32)
        reducesTo_S10x128_S128_d0 h_S_))
    (broadcastInDim S1x128 ![] bcast_S_S1x128 (constant (F := Ideal) S_ .f32 0x47C35000#32))

/-- The inverse deviation row from the two arrays of tile sums: `1 / sqrt (E[y²] - E[y]² + ε)`. -/
def invDev (s ss : S10x1x128.Idx → EReal) : S1x128.Idx → EReal :=
  Host.rsqrt (F := Ideal)
    (addf (subf (tileMean ss) (mulf (tileMean s) (tileMean s)))
      (broadcastInDim S1x128 ![] bcast_S_S1x128 (constant (F := Ideal) S_ .f32 0x3727C5AC#32)))

end Cert.KernelIdeal.Fold

end
-- ==== Proof.Fold.lean ====
/-
  The idealized kernel's segment fold, read at the buffers the result depends on.

  @main is: host operations (the two weight matrices joined side by side into `wc`, a zero row and the residual bias joined
  into `bc`); the first region (`h` and `r` from `x`, `wc`, `bc`); host operations (the aggregation of `h` over the edge list,
  plus the bias); the second region (`y` and its per-tile column sums); host operations (mean and inverse deviation from the
  tile sums; the scale and shift rows); the third region (the normalisation). Each theorem below reads one buffer at one
  boundary of that fold; the arguments are read back to the launch memory.
-/
import proofs.«105547_j40785009443358_2_alg».proof.Proof.Region0
import proofs.«105547_j40785009443358_2_alg».proof.Proof.Region1
import proofs.«105547_j40785009443358_2_alg».proof.Proof.Region2
import proofs.«105547_j40785009443358_2_alg».proof.Proof.Glue
import proofs.«105547_j40785009443358_2_alg».proof.Proof.AggTerm
import proofs.«105547_j40785009443358_2_alg».proof.Proof.HostTerms
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo

/-- A stretch of host operations leaves a buffer none of them writes as it was. -/
local macro "keeps " ops:ident b:ident : term => `(StableHlo.after_of_forall_not_mem (b := Proc.devRef .tc $b) _ _
  (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

section AnyInstance
variable {F : FTy → Type} [FloatOps F] (m : (ℓ : Loc nD τ sig) → Buf (Elt F) ℓ) (ρ : Dev nD → PrngReg)

set_option maxHeartbeats 32000000 in
/-- At any float instance: the buffer the host operations between the first two regions leave for the second region's first
    operand is their composition applied to the first region's first result, the edge list and the bias. -/
theorem entry1_term_any (c : Dev nD) : V5 m ρ c main_v50
    = aggregateTerm (F := F) (W2 m ρ c (Proc.devRef .tc main_v4_0)) (W2 m ρ c (Proc.devRef .tc main_arg1))
        (W2 m ρ c (Proc.devRef .tc main_arg3)) := by
  show StableHlo.after hostOps1_2 (W4 m ρ c) (Proc.devRef .tc main_v50) = _
  after_results_simp
  unfold aggregateTerm
  rfl

end AnyInstance

variable (m : (ℓ : Loc nD τ sig) → Buf (Elt Ideal) ℓ) (ρ : Dev nD → PrngReg)

/-! ## Before the first region -/

theorem entry0_x (c : Dev nD) : V1 m ρ c main_arg0 = (m ((c : Thread nD τ).loc main_arg0)) :=
  (keeps hostOps0 main_arg0 : StableHlo.after hostOps0 (W0 m ρ c) (Proc.devRef .tc main_arg0) = W0 m ρ c (Proc.devRef .tc main_arg0)).trans rfl

theorem entry0_w (c : Dev nD) : V1 m ρ c main_v0 = joined (m ((c : Thread nD τ).loc main_arg2)) (m ((c : Thread nD τ).loc main_arg4)) := by
  show StableHlo.after hostOps0 (W0 m ρ c) (Proc.devRef .tc main_v0) = _
  after_results
  rfl

theorem entry0_b (c : Dev nD) : V1 m ρ c main_v3 = joinedBias (m ((c : Thread nD τ).loc main_arg5)) := by
  show StableHlo.after hostOps0 (W0 m ρ c) (Proc.devRef .tc main_v3) = _
  after_results
  rfl

/-! ## After the first region -/

theorem exit0_h (c : Dev nD) : W2 m ρ c (Proc.devRef .tc main_v4_0)
    = Linear.leftHalf (V1 m ρ c main_arg0) (V1 m ρ c main_v0) (V1 m ρ c main_v3) :=
  (W2_arr m ρ c 3).trans (Linear.final_left (V1 m ρ) c)

theorem exit0_r (c : Dev nD) : W2 m ρ c (Proc.devRef .tc main_v4_1)
    = Linear.rightHalfRelu (V1 m ρ c main_arg0) (V1 m ρ c main_v0) (V1 m ρ c main_v3) :=
  (W2_arr m ρ c 4).trans (Linear.final_right (V1 m ρ) c)

theorem exit0_ei (c : Dev nD) : W2 m ρ c (Proc.devRef .tc main_arg1) = (m ((c : Thread nD τ).loc main_arg1)) :=
  (W2_of_ne m ρ c main_arg1 (by decide)).trans
    ((keeps hostOps0 main_arg1 : StableHlo.after hostOps0 (W0 m ρ c) (Proc.devRef .tc main_arg1) = W0 m ρ c (Proc.devRef .tc main_arg1)).trans rfl)

theorem exit0_bias (c : Dev nD) : W2 m ρ c (Proc.devRef .tc main_arg3) = (m ((c : Thread nD τ).loc main_arg3)) :=
  (W2_of_ne m ρ c main_arg3 (by decide)).trans
    ((keeps hostOps0 main_arg3 : StableHlo.after hostOps0 (W0 m ρ c) (Proc.devRef .tc main_arg3) = W0 m ρ c (Proc.devRef .tc main_arg3)).trans rfl)

theorem exit0_gamma (c : Dev nD) : W2 m ρ c (Proc.devRef .tc main_arg6) = (m ((c : Thread nD τ).loc main_arg6)) :=
  (W2_of_ne m ρ c main_arg6 (by decide)).trans
    ((keeps hostOps0 main_arg6 : StableHlo.after hostOps0 (W0 m ρ c) (Proc.devRef .tc main_arg6) = W0 m ρ c (Proc.devRef .tc main_arg6)).trans rfl)

theorem exit0_beta (c : Dev nD) : W2 m ρ c (Proc.devRef .tc main_arg7) = (m ((c : Thread nD τ).loc main_arg7)) :=
  (W2_of_ne m ρ c main_arg7 (by decide)).trans
    ((keeps hostOps0 main_arg7 : StableHlo.after hostOps0 (W0 m ρ c) (Proc.devRef .tc main_arg7) = W0 m ρ c (Proc.devRef .tc main_arg7)).trans rfl)

/-! ## Before the second region -/

/-- The aggregate the second region finds is the aggregation term of the first region's `h`, the edge list and the bias. -/
theorem entry1_term (c : Dev nD) : V5 m ρ c main_v50
    = aggregateTerm (F := Ideal) (W2 m ρ c (Proc.devRef .tc main_v4_0)) (W2 m ρ c (Proc.devRef .tc main_arg1))
        (W2 m ρ c (Proc.devRef .tc main_arg3)) :=
  entry1_term_any m ρ c

set_option maxHeartbeats 16000000 in
/-- The kernel's aggregation term is the reference's `aggregate`: the same operations in the same order, operation by operation. -/
theorem term_eq (h : FVec Ideal S100000x128 .f32) (ei : IVec S2x625000 32) (b : FVec Ideal S128 .f32) :
    aggregateTerm (F := Ideal) h ei b = Cert.ReferenceIdeal.Agg.aggregate h ei b := by
  unfold aggregateTerm Cert.ReferenceIdeal.Agg.aggregate
  rfl

theorem entry1_agg (c : Dev nD) : V5 m ρ c main_v50
    = Cert.ReferenceIdeal.Agg.aggregate (W2 m ρ c (Proc.devRef .tc main_v4_0)) (W2 m ρ c (Proc.devRef .tc main_arg1))
        (W2 m ρ c (Proc.devRef .tc main_arg3)) :=
  (entry1_term m ρ c).trans (term_eq _ _ _)

/-- A buffer the three stretches between the first two regions do not write. -/
theorem between01 (c : Dev nD) (b : Ref sig .tc)
    (h1 : StableHlo.after hostOps1 (W2 m ρ c) (Proc.devRef .tc b) = W2 m ρ c (Proc.devRef .tc b))
    (h2 : StableHlo.after hostOps1_1 (W3 m ρ c) (Proc.devRef .tc b) = W3 m ρ c (Proc.devRef .tc b))
    (h3 : StableHlo.after hostOps1_2 (W4 m ρ c) (Proc.devRef .tc b) = W4 m ρ c (Proc.devRef .tc b)) :
    W5 m ρ c (Proc.devRef .tc b) = W2 m ρ c (Proc.devRef .tc b) :=
  h3.trans (h2.trans h1)

theorem entry1_res (c : Dev nD) : V5 m ρ c main_v4_1 = W2 m ρ c (Proc.devRef .tc main_v4_1) :=
  between01 m ρ c main_v4_1 (keeps hostOps1 main_v4_1) (keeps hostOps1_1 main_v4_1) (keeps hostOps1_2 main_v4_1)

/-! ## After the second region -/

theorem exit1_y (c : Dev nD) : W6 m ρ c (Proc.devRef .tc main_v51_0) = Stats.addRows (V5 m ρ c main_v50) (V5 m ρ c main_v4_1) :=
  (W6_arr m ρ c 2).trans (Stats.final_sum (V5 m ρ) c)

theorem exit1_s (c : Dev nD) : W6 m ρ c (Proc.devRef .tc main_v51_1)
    = Stats.tileSums (Stats.addRows (V5 m ρ c main_v50) (V5 m ρ c main_v4_1)) :=
  (W6_arr m ρ c 3).trans (Stats.final_colsum (V5 m ρ) c)

theorem exit1_ss (c : Dev nD) : W6 m ρ c (Proc.devRef .tc main_v51_2)
    = Stats.tileSqSums (Stats.addRows (V5 m ρ c main_v50) (V5 m ρ c main_v4_1)) :=
  (W6_arr m ρ c 4).trans (Stats.final_colsqsum (V5 m ρ) c)

theorem exit1_gamma (c : Dev nD) : W6 m ρ c (Proc.devRef .tc main_arg6) = (m ((c : Thread nD τ).loc main_arg6)) :=
  (W6_of_ne m ρ c main_arg6 (by decide)).trans
    ((between01 m ρ c main_arg6 (keeps hostOps1 main_arg6) (keeps hostOps1_1 main_arg6) (keeps hostOps1_2 main_arg6)).trans (exit0_gamma m ρ c))

theorem exit1_beta (c : Dev nD) : W6 m ρ c (Proc.devRef .tc main_arg7) = (m ((c : Thread nD τ).loc main_arg7)) :=
  (W6_of_ne m ρ c main_arg7 (by decide)).trans
    ((between01 m ρ c main_arg7 (keeps hostOps1 main_arg7) (keeps hostOps1_1 main_arg7) (keeps hostOps1_2 main_arg7)).trans (exit0_beta m ρ c))

/-! ## Before the third region -/

theorem entry2_y (c : Dev nD) : V7 m ρ c main_v51_0 = W6 m ρ c (Proc.devRef .tc main_v51_0) :=
  keeps hostOps2 main_v51_0

theorem entry2_mean (c : Dev nD) : V7 m ρ c main_v59 = tileMean (W6 m ρ c (Proc.devRef .tc main_v51_1)) := by
  show StableHlo.after hostOps2 (W6 m ρ c) (Proc.devRef .tc main_v59) = _
  after_results
  rfl

set_option maxHeartbeats 8000000 in
theorem entry2_istd (c : Dev nD) : V7 m ρ c main_v66
    = invDev (W6 m ρ c (Proc.devRef .tc main_v51_1)) (W6 m ρ c (Proc.devRef .tc main_v51_2)) := by
  show StableHlo.after hostOps2 (W6 m ρ c) (Proc.devRef .tc main_v66) = _
  after_results_simp
  rfl

theorem entry2_gamma (c : Dev nD) : V7 m ρ c main_v67 = shapeCast S1x128 (W6 m ρ c (Proc.devRef .tc main_arg6)) shapeCasts_S128_S1x128 := by
  show StableHlo.after hostOps2 (W6 m ρ c) (Proc.devRef .tc main_v67) = _
  after_results
  rfl

theorem entry2_beta (c : Dev nD) : V7 m ρ c main_v68 = shapeCast S1x128 (W6 m ρ c (Proc.devRef .tc main_arg7)) shapeCasts_S128_S1x128 := by
  show StableHlo.after hostOps2 (W6 m ρ c) (Proc.devRef .tc main_v68) = _
  after_results
  rfl

/-! ## After the third region: the result -/

theorem result (c : Dev nD) : W8 m ρ c (Proc.devRef .tc main_v69)
    = Norm.normalize (V7 m ρ c main_v51_0) (V7 m ρ c main_v59) (V7 m ρ c main_v66) (V7 m ρ c main_v67) (V7 m ρ c main_v68) :=
  (W8_arr m ρ c 5).trans (Norm.final (V7 m ρ) c)

end Cert.KernelIdeal.Fold

end
-- ==== Proof.RefValue.lean ====
/-
  The reference's result at an index.

  With `y` the reference's pre-normalisation array, the column mean is `(0 + ∑ k < 100000, y (k, j)) / 100000`, the column
  variance is `(0 + ∑ k < 100000, (y (k, j) - mean j) * (y (k, j) - mean j)) / 100000` (the zero and the divisor are the
  program's own words, left unevaluated), and the result at `(i, j)` is
  `((y (i, j) - mean j) * (1 / sqrt (var j + ε))) * gamma j + beta j`.
-/
import proofs.«105547_j40785009443358_2_alg».proof.Proof.RefRead

set_option maxRecDepth 16384

noncomputable section

open scoped BigOperators

namespace Cert.ReferenceIdeal.Out

open Cert.ReferenceIdeal Cert.ReferenceIdeal.ReadP
open Idealize.ShloMosaic Idealize.ShloMosaic.ValueIdx

/-- The column mean of a [100000, 128] array, in the reference's spelling. -/
def colMean (y : S100000x128.Idx → EReal) (j : Fin 128) : EReal :=
  Ideal.div (Ideal.ofBits .f32 0x00000000#32 + ∑ k : Fin 100000, y (ix2 k j)) (Ideal.ofBits .f32 0x47C35000#32)

/-- The column variance (mean of the squared deviations from the column mean), in the reference's spelling. -/
def colVar (y : S100000x128.Idx → EReal) (j : Fin 128) : EReal :=
  Ideal.div (Ideal.ofBits .f32 0x00000000#32 + ∑ k : Fin 100000, (y (ix2 k j) - colMean y j) * (y (ix2 k j) - colMean y j))
    (Ideal.ofBits .f32 0x47C35000#32)

/-- The reference's mean row at column `q`. -/
theorem mean_apply (x0 : FVec Ideal S100000x128 .f32) (x1 : IVec S2x625000 32) (x2 : FVec Ideal S128x128 .f32) (x3 : FVec Ideal S128 .f32) (x4 : FVec Ideal S128x128 .f32) (x5 : FVec Ideal S128 .f32) (q : Fin 128) :
    val_main_v55 (F := Ideal) x0 x1 x2 x3 x4 x5 (ix1 q) = colMean (val_main_v52 (F := Ideal) x0 x1 x2 x3 x4 x5) q := by
  rw [val_main_v55_apply, val_main_v53_apply]
  unfold colMean
  have e : ∀ k : Fin 100000, idx_main_v53 (ix1 q) k = ix2 k q := fun k => funext fun a => Fin.ext (by
    match a with
    | ⟨0, _⟩ => rfl
    | ⟨1, _⟩ => rfl)
  simp only [e]
  rfl

/-- The reference's variance row at column `q`. -/
theorem var_apply (x0 : FVec Ideal S100000x128 .f32) (x1 : IVec S2x625000 32) (x2 : FVec Ideal S128x128 .f32) (x3 : FVec Ideal S128 .f32) (x4 : FVec Ideal S128x128 .f32) (x5 : FVec Ideal S128 .f32) (q : Fin 128) :
    val_main_v62 (F := Ideal) x0 x1 x2 x3 x4 x5 (ix1 q) = colVar (val_main_v52 (F := Ideal) x0 x1 x2 x3 x4 x5) q := by
  rw [val_main_v62_apply, val_main_v60_apply]
  unfold colVar
  have e : ∀ k : Fin 100000, idx_main_v60 (ix1 q) k = ix2 k q := fun k => funext fun a => Fin.ext (by
    match a with
    | ⟨0, _⟩ => rfl
    | ⟨1, _⟩ => rfl)
  have em : ∀ k : Fin 100000, idx_main_v56 (idx_main_v57 (ix2 k q)) = ix1 q := fun k => funext fun a => Fin.ext (by
    match a with
    | ⟨0, _⟩ => rfl)
  have hdev : ∀ k : Fin 100000, val_main_v59 (F := Ideal) x0 x1 x2 x3 x4 x5 (idx_main_v60 (ix1 q) k)
      = (val_main_v52 (F := Ideal) x0 x1 x2 x3 x4 x5 (ix2 k q) - colMean (val_main_v52 (F := Ideal) x0 x1 x2 x3 x4 x5) q)
        * (val_main_v52 (F := Ideal) x0 x1 x2 x3 x4 x5 (ix2 k q) - colMean (val_main_v52 (F := Ideal) x0 x1 x2 x3 x4 x5) q) := by
    intro k
    rw [e k, val_main_v59_apply, val_main_v58_apply, val_main_v57_apply, val_main_v56_apply, em k, mean_apply]
    rfl
  simp only [hdev]
  rfl

/-- THE REFERENCE'S RESULT at `(p, q)`. -/
theorem result_apply (x0 : FVec Ideal S100000x128 .f32) (x1 : IVec S2x625000 32) (x2 : FVec Ideal S128x128 .f32) (x3 : FVec Ideal S128 .f32) (x4 : FVec Ideal S128x128 .f32) (x5 : FVec Ideal S128 .f32) (x6 x7 : FVec Ideal S128 .f32) (p : Fin 100000) (q : Fin 128) :
    val_main_v77 (F := Ideal) x0 x1 x2 x3 x4 x5 x6 x7 (ix2 p q)
      = ((val_main_v52 (F := Ideal) x0 x1 x2 x3 x4 x5 (ix2 p q) - colMean (val_main_v52 (F := Ideal) x0 x1 x2 x3 x4 x5) q)
          * Ideal.rsqrt (colVar (val_main_v52 (F := Ideal) x0 x1 x2 x3 x4 x5) q + Ideal.ofBits .f32 0x3727C5AC#32))
        * x6 (ix1 q) + x7 (ix1 q) := by
  have e64 : idx_main_v63 (idx_main_v64 (ix2 p q)) = ix1 q := funext fun a => Fin.ext (by
    match a with
    | ⟨0, _⟩ => rfl)
  have e70 : idx_main_v69 (idx_main_v70 (ix2 p q)) = ix1 q := funext fun a => Fin.ext (by
    match a with
    | ⟨0, _⟩ => rfl)
  have e73 : idx_main_v72 (idx_main_v73 (ix2 p q)) = ix1 q := funext fun a => Fin.ext (by
    match a with
    | ⟨0, _⟩ => rfl)
  have e76 : idx_main_v75 (idx_main_v76 (ix2 p q)) = ix1 q := funext fun a => Fin.ext (by
    match a with
    | ⟨0, _⟩ => rfl)
  rw [val_main_v77_apply, val_main_v74_apply, val_main_v71_apply, val_main_v65_apply, val_main_v64_apply, val_main_v63_apply, e64,
    val_main_v70_apply, val_main_v69_apply, e70, val_main_v68_apply, val_main_v67_apply, val_main_v73_apply, val_main_v72_apply, e73,
    val_main_v76_apply, val_main_v75_apply, e76, mean_apply, var_apply]
  rfl

end Cert.ReferenceIdeal.Out

end
-- ==== Proof.Bridge.lean ====
/-
  The two programs compute one function.

  With `y` the reference's pre-normalisation array (a function of the arguments):
  * the first region's two results are the reference's `x · W` and `max (x · W' + b') 0`: the left half of the joined matrix
    is `W`, the right half `W'`, the joined bias row is zero on the left (and `s + 0 = s`) and `b'` on the right;
  * so the aggregate plus the residual branch is `y` on both sides;
  * the mean row built from ten tile sums is the column mean: a sum over 100000 rows is the sum over ten tiles of 10000;
  * the inverse deviation built from `E[y²] - E[y] * E[y]` is the one built from the mean squared deviation: the variance
    identity, which needs every entry of `y` real;
  * the scale and shift rows are the [128] arguments read as [1, 128] rows.
  Hence the kernel's normalisation of `y` is the reference's result, entry by entry.
-/
import proofs.«105547_j40785009443358_2_alg».proof.Proof.Region0
import proofs.«105547_j40785009443358_2_alg».proof.Proof.Region1
import proofs.«105547_j40785009443358_2_alg».proof.Proof.Region2
import proofs.«105547_j40785009443358_2_alg».proof.Proof.HostTerms
import proofs.«105547_j40785009443358_2_alg».proof.Proof.Glue
import proofs.«105547_j40785009443358_2_alg».proof.Proof.RefValue

set_option maxRecDepth 16384

noncomputable section

open scoped BigOperators

namespace Cert.Bridge

open Idealize.ShloMosaic Idealize.ShloMosaic.ValueIdx Cert.Laws
open Cert.KernelIdeal (S100000x128 S2x625000 S128x128 S128 S128x256 S1x256 S256 S1x128 S10x1x128 S10x128 S_)
open Cert.KernelIdeal.Linear Cert.KernelIdeal.Stats Cert.KernelIdeal.Norm Cert.KernelIdeal.Fold
open Cert.ReferenceIdeal.ReadP Cert.ReferenceIdeal.Agg Cert.ReferenceIdeal.Out

/-! ## The joined weights and the joined bias, entry by entry -/

theorem joined_left (w rw : S128x128.Idx → EReal) (k q : Fin 128) : joined w rw (ix2 k (colL q)) = w (ix2 k q) := by
  unfold joined
  refine concatenate_pair_apply_left (t := S128x256) (s₁ := S128x128) (s₂ := S128x128) (1 : Fin 2) w rw _ (ix2 k (colL q)) rfl (ix2 k q) fun b => ?_
  match b with
  | ⟨0, _⟩ => rfl
  | ⟨1, _⟩ => rfl

theorem joined_right (w rw : S128x128.Idx → EReal) (k q : Fin 128) : joined w rw (ix2 k (colR q)) = rw (ix2 k q) := by
  unfold joined
  refine concatenate_pair_apply_right (t := S128x256) (s₁ := S128x128) (s₂ := S128x128) (1 : Fin 2) w rw _ (ix2 k (colR q)) rfl rfl (ix2 k q) (fun b hb => ?_) ?_
  · match b with
    | ⟨0, _⟩ => rfl
    | ⟨1, _⟩ => exact absurd rfl hb
  · show q.val + 128 = 128 + q.val
    omega

theorem joinedBias_left (rb : S128.Idx → EReal) (q : Fin 128) : joinedBias rb (ix2 (0 : Fin 1) (colL q)) = 0 := by
  unfold joinedBias
  rw [shapeCast_a_1a_apply]
  refine (concatenate_pair_apply_left (t := S256) (s₁ := S128) (s₂ := S128) (0 : Fin 1) (broadcastInDim S128 ![] Cert.KernelIdeal.Gen.bcast_S_S128 (constant (F := Ideal) S_ .f32 0x00000000#32)) rb _ (ix1 (colL q)) rfl (ix1 q) fun b => ?_).trans ?_
  · match b with
    | ⟨0, _⟩ => rfl
  · show Ideal.ofBits .f32 0x00000000#32 = 0
    exact ofBits_zero

theorem joinedBias_right (rb : S128.Idx → EReal) (q : Fin 128) : joinedBias rb (ix2 (0 : Fin 1) (colR q)) = rb (ix1 q) := by
  unfold joinedBias
  rw [shapeCast_a_1a_apply]
  refine concatenate_pair_apply_right (t := S256) (s₁ := S128) (s₂ := S128) (0 : Fin 1) (broadcastInDim S128 ![] Cert.KernelIdeal.Gen.bcast_S_S128 (constant (F := Ideal) S_ .f32 0x00000000#32)) rb _ (ix1 (colR q)) rfl rfl (ix1 q) (fun b hb => ?_) ?_
  · match b with
    | ⟨0, _⟩ => exact absurd rfl hb
  · show q.val + 128 = 128 + q.val
    omega

/-! ## The first region's results are the reference's -/

variable (x : FVec Ideal S100000x128 .f32) (ei : IVec S2x625000 32) (w : FVec Ideal S128x128 .f32) (b : FVec Ideal S128 .f32)
  (rw : FVec Ideal S128x128 .f32) (rb g bt : FVec Ideal S128 .f32)

/-- The index functions of the reference's two matrix products and of its bias row, in coordinates. -/
theorem lidx30 (p : Fin 100000) (q k : Fin 128) : lidx_main_v30 (ix2 p q) k = ix2 p k :=
  funext fun a => Fin.ext (by
    match a with
    | ⟨0, _⟩ => rfl
    | ⟨1, _⟩ => rfl)
theorem ridx30 (p : Fin 100000) (q k : Fin 128) : ridx_main_v30 (ix2 p q) k = ix2 k q :=
  funext fun a => Fin.ext (by
    match a with
    | ⟨0, _⟩ => rfl
    | ⟨1, _⟩ => rfl)
theorem lidx47 (p : Fin 100000) (q k : Fin 128) : lidx_main_v47 (ix2 p q) k = ix2 p k :=
  funext fun a => Fin.ext (by
    match a with
    | ⟨0, _⟩ => rfl
    | ⟨1, _⟩ => rfl)
theorem ridx47 (p : Fin 100000) (q k : Fin 128) : ridx_main_v47 (ix2 p q) k = ix2 k q :=
  funext fun a => Fin.ext (by
    match a with
    | ⟨0, _⟩ => rfl
    | ⟨1, _⟩ => rfl)
theorem idx48 (p : Fin 100000) (q : Fin 128) : idx_main_v48 (idx_main_v49 (ix2 p q)) = ix1 q :=
  funext fun a => Fin.ext (by
    match a with
    | ⟨0, _⟩ => rfl)

theorem left_eq : leftHalf x (joined w rw) (joinedBias rb) = val_main_v30 (F := Ideal) x w := by
  funext i
  obtain ⟨p, q, rfl⟩ : ∃ (p : Fin 100000) (q : Fin 128), i = ix2 p q := ⟨i 0, i 1, eq_ix2 i⟩
  rw [val_main_v30_apply]
  show (∑ k : Fin 128, x (ix2 p k) * joined w rw (ix2 k (colL q))) + joinedBias rb (ix2 (0 : Fin 1) (colL q)) = _
  rw [joinedBias_left, add_zero]
  refine Finset.sum_congr rfl fun k _ => ?_
  rw [joined_left, lidx30, ridx30]

theorem right_eq : rightHalfRelu x (joined w rw) (joinedBias rb) = val_main_v51 (F := Ideal) x rw rb := by
  funext i
  obtain ⟨p, q, rfl⟩ : ∃ (p : Fin 100000) (q : Fin 128), i = ix2 p q := ⟨i 0, i 1, eq_ix2 i⟩
  rw [val_main_v51_apply, val_main_v50_apply, val_main_v47_apply, val_main_v49_apply, val_main_v48_apply]
  show max ((∑ k : Fin 128, x (ix2 p k) * joined w rw (ix2 k (colR q))) + joinedBias rb (ix2 (0 : Fin 1) (colR q)))
      (Ideal.ofBits .f32 0x00000000#32) = _
  rw [joinedBias_right]
  refine congrArg₂ max (congrArg₂ (· + ·) (Finset.sum_congr rfl fun k _ => ?_) ?_) rfl
  · rw [joined_right, lidx47, ridx47]
  · rw [idx48]

/-- Both programs' pre-normalisation arrays are the reference's `y`. -/
theorem y_eq : addRows (aggregate (leftHalf x (joined w rw) (joinedBias rb)) ei b) (rightHalfRelu x (joined w rw) (joinedBias rb))
    = val_main_v52 (F := Ideal) x ei w b rw rb := by
  rw [left_eq, right_eq]
  unfold val_main_v52
  rw [v46_eq]
  rfl

/-! ## The statistics rows -/

theorem cast_tiles (s : S10x1x128.Idx → EReal) (t : Fin 10) (q : Fin 128) :
    shapeCast S10x128 s Cert.KernelIdeal.Gen.shapeCasts_S10x1x128_S10x128 (ix2 t q) = s (ix3 t (0 : Fin 1) q) :=
  shapeCast_apply s _ _ _ (by
    rw [Shape.rowMajor_val_three, Shape.rowMajor_val_two]
    show (t.val * 1 + 0) * 128 + q.val = t.val * 128 + q.val
    omega)

/-- The mean row at column `q`: the ten tile sums added up and divided. -/
theorem tileMean_apply (s : S10x1x128.Idx → EReal) (q : Fin 128) :
    tileMean s (row0 q)
      = Ideal.div (Ideal.ofBits .f32 0x00000000#32 + ∑ t : Fin 10, s (ix3 t (0 : Fin 1) q)) (Ideal.ofBits .f32 0x47C35000#32) := by
  unfold tileMean
  refine congrArg (Ideal.div · (Ideal.ofBits .f32 0x47C35000#32)) ?_
  refine (broadcastInDim_apply _ _ _ (row0 q) (ix1 q) fun a => ?_).trans ?_
  · match a with
    | ⟨0, _⟩ => rfl
  · have hR : S10x128.Reduces [0] S128 := by decide
    simp only [Host.reduceAdd, Ideal.hostReduceAdd_def]
    rw [Ideal.hostReduceAdd_single Cert.KernelIdeal.Gen.reducesTo_S10x128_S128_d0 hR]
    refine congrArg₂ (· + ·) rfl ?_
    show ∑ t : Fin 10, shapeCast S10x128 s Cert.KernelIdeal.Gen.shapeCasts_S10x1x128_S10x128 (hR.lift (ix1 q) t) = _
    refine Finset.sum_congr rfl fun t _ => ?_
    refine Eq.trans (congrArg _ (funext fun a => Fin.ext ?_)) (cast_tiles s t q)
    match a with
    | ⟨0, _⟩ => rfl
    | ⟨1, _⟩ => rfl

/-- The tile sums of `y`, added over the ten tiles, are the column sums of `y`. -/
theorem sum_tileSums (y : S100000x128.Idx → EReal) (q : Fin 128) :
    ∑ t : Fin 10, tileSums y (ix3 t (0 : Fin 1) q) = ∑ k : Fin 100000, y (ix2 k q) := by
  rw [sum_tiles (a := 10) (b := 10000) (n := 100000) rfl (fun k => y (ix2 k q))]
  rfl

theorem sum_tileSqSums (y : S100000x128.Idx → EReal) (q : Fin 128) :
    ∑ t : Fin 10, tileSqSums y (ix3 t (0 : Fin 1) q) = ∑ k : Fin 100000, y (ix2 k q) * y (ix2 k q) := by
  rw [sum_tiles (a := 10) (b := 10000) (n := 100000) rfl (fun k => y (ix2 k q) * y (ix2 k q))]
  rfl

/-- The kernel's mean row is the column mean. -/
theorem mean_eq (y : S100000x128.Idx → EReal) (q : Fin 128) : tileMean (tileSums y) (row0 q) = colMean y q := by
  rw [tileMean_apply, sum_tileSums]
  rfl

/-- The inverse deviation row at column `q`. -/
theorem invDev_apply (s ss : S10x1x128.Idx → EReal) (q : Fin 128) :
    invDev s ss (row0 q)
      = Ideal.rsqrt ((tileMean ss (row0 q) - tileMean s (row0 q) * tileMean s (row0 q)) + Ideal.ofBits .f32 0x3727C5AC#32) := rfl

/-- THE VARIANCE STEP: for real `y`, `E[y²] - E[y] * E[y]` is the mean squared deviation. -/
theorem var_eq (y : S100000x128.Idx → EReal) (hy : AllReal y) (q : Fin 128) :
    tileMean (tileSqSums y) (row0 q) - tileMean (tileSums y) (row0 q) * tileMean (tileSums y) (row0 q) = colVar y q := by
  rw [tileMean_apply, tileMean_apply, sum_tileSums, sum_tileSqSums]
  unfold colVar colMean
  rw [ofBits_zero, ofBits_100000, zero_add, zero_add, zero_add]
  exact (variance_eq (fun k : Fin 100000 => y (ix2 k q)) (fun k => hy _) 100000 (by norm_num) (by simp)).symm

/-- A [128] row read as a [1, 128] row. -/
theorem row_cast (v : S128.Idx → EReal) (q : Fin 128) :
    shapeCast S1x128 v Cert.KernelIdeal.Gen.shapeCasts_S128_S1x128 (row0 q) = v (ix1 q) :=
  shapeCast_a_1a_apply v _ (0 : Fin 1) q

/-! ## The result -/

/-- THE KERNEL'S NORMALISATION OF `y` IS THE REFERENCE'S RESULT, when every entry of `y` is real. -/
theorem result_eq (hy : AllReal (val_main_v52 (F := Ideal) x ei w b rw rb)) :
    normalize (val_main_v52 (F := Ideal) x ei w b rw rb)
        (tileMean (tileSums (val_main_v52 (F := Ideal) x ei w b rw rb)))
        (invDev (tileSums (val_main_v52 (F := Ideal) x ei w b rw rb)) (tileSqSums (val_main_v52 (F := Ideal) x ei w b rw rb)))
        (shapeCast S1x128 g Cert.KernelIdeal.Gen.shapeCasts_S128_S1x128)
        (shapeCast S1x128 bt Cert.KernelIdeal.Gen.shapeCasts_S128_S1x128)
      = val_main_v77 (F := Ideal) x ei w b rw rb g bt := by
  funext i
  obtain ⟨p, q, rfl⟩ : ∃ (p : Fin 100000) (q : Fin 128), i = ix2 p q := ⟨i 0, i 1, eq_ix2 i⟩
  rw [result_apply]
  show (val_main_v52 (F := Ideal) x ei w b rw rb (ix2 p q) - tileMean (tileSums (val_main_v52 (F := Ideal) x ei w b rw rb)) (row0 q))
      * invDev (tileSums (val_main_v52 (F := Ideal) x ei w b rw rb)) (tileSqSums (val_main_v52 (F := Ideal) x ei w b rw rb)) (row0 q)
      * shapeCast S1x128 g Cert.KernelIdeal.Gen.shapeCasts_S128_S1x128 (row0 q)
      + shapeCast S1x128 bt Cert.KernelIdeal.Gen.shapeCasts_S128_S1x128 (row0 q) = _
  rw [mean_eq, invDev_apply, var_eq _ hy, row_cast, row_cast]

end Cert.Bridge

end
-- ==== Proof.KernelValue.lean ====
/-
  The idealized kernel's result array, as the reference's function of the arguments.

  Reading the segment fold from the result buffer back to the launch memory: the result is the normalisation of `y`
  with the mean and inverse-deviation rows computed from `y`'s tile sums and the scale and shift rows; `y` is the
  aggregate of the first region's `h` plus its `r`; `h` and `r` come from `x`, the joined weights and the joined bias.
  By the bridge this is the reference's result function at the same arguments, provided the float arguments are real.
-/
import proofs.«105547_j40785009443358_2_alg».proof.Proof.Fold
import proofs.«105547_j40785009443358_2_alg».proof.Proof.Bridge

set_option maxRecDepth 16384

noncomputable section

namespace Cert.KernelIdeal.Whole

open Cert.KernelIdeal Cert.KernelIdeal.Gen Cert.Laws
open Idealize.ShloMosaic Idealize.ShloMosaic.TcCoe Idealize.SL.Sem

variable (m : (ℓ : Loc nD τ sig) → Buf (Elt Ideal) ℓ) (ρ : Dev nD → PrngReg)

/-- The first region's first result, from the launch memory. -/
theorem h_eq (c : Dev nD) : W2 m ρ c (Proc.devRef .tc main_v4_0)
    = Linear.leftHalf (m ((c : Thread nD τ).loc main_arg0)) (Fold.joined (m ((c : Thread nD τ).loc main_arg2)) (m ((c : Thread nD τ).loc main_arg4))) (Fold.joinedBias (m ((c : Thread nD τ).loc main_arg5))) := by
  rw [Fold.exit0_h, Fold.entry0_x, Fold.entry0_w, Fold.entry0_b]

/-- The first region's second result, from the launch memory. -/
theorem r_eq (c : Dev nD) : W2 m ρ c (Proc.devRef .tc main_v4_1)
    = Linear.rightHalfRelu (m ((c : Thread nD τ).loc main_arg0)) (Fold.joined (m ((c : Thread nD τ).loc main_arg2)) (m ((c : Thread nD τ).loc main_arg4))) (Fold.joinedBias (m ((c : Thread nD τ).loc main_arg5))) := by
  rw [Fold.exit0_r, Fold.entry0_x, Fold.entry0_w, Fold.entry0_b]

/-- The second region's first result is the reference's `y` of the launch memory. -/
theorem y_eq (c : Dev nD) : W6 m ρ c (Proc.devRef .tc main_v51_0)
    = Cert.ReferenceIdeal.ReadP.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Fold.exit1_y, Fold.entry1_agg, Fold.entry1_res, h_eq, r_eq, Fold.exit0_ei, Fold.exit0_bias]
  exact Cert.Bridge.y_eq _ _ _ _ _ _

/-- THE RESULT ARRAY is the reference's result function of the launch memory, when the float arguments are real. -/
theorem result_eq (c : Dev nD) (h0 : AllReal (m ((c : Thread nD τ).loc main_arg0))) (h2 : AllReal (m ((c : Thread nD τ).loc main_arg2))) (h3 : AllReal (m ((c : Thread nD τ).loc main_arg3))) (h4 : AllReal (m ((c : Thread nD τ).loc main_arg4)))
    (h5 : AllReal (m ((c : Thread nD τ).loc main_arg5))) :
    W8 m ρ c (Proc.devRef .tc main_v69)
      = Cert.ReferenceIdeal.ReadP.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hs : W6 m ρ c (Proc.devRef .tc main_v51_1) = Stats.tileSums (W6 m ρ c (Proc.devRef .tc main_v51_0)) := by
    rw [Fold.exit1_s, Fold.exit1_y]
  have hss : W6 m ρ c (Proc.devRef .tc main_v51_2) = Stats.tileSqSums (W6 m ρ c (Proc.devRef .tc main_v51_0)) := by
    rw [Fold.exit1_ss, Fold.exit1_y]
  rw [Fold.result, Fold.entry2_y, Fold.entry2_mean, Fold.entry2_istd, Fold.entry2_gamma, Fold.entry2_beta, hs, hss,
    Fold.exit1_gamma, Fold.exit1_beta, y_eq]
  exact Cert.Bridge.result_eq _ _ _ _ _ _ _ _ (Cert.ReferenceIdeal.Agg.y_real _ _ _ _ _ _ h0 h2 h3 h4 h5)

end Cert.KernelIdeal.Whole

end
-- ==== Proof.PreDecode.lean ====
/-
  The precondition, read back: every float argument is an array of reals.

  The printed predicate is the conjunction, over the seven float arguments, of `all (|a| < +inf)`. At the extended reals
  `|a| = max a (-a)` and the bound's word is `+∞`, so `|a| < +∞` holds exactly when `a` is neither infinity: a real.
-/
import proofs.«105547_j40785009443358_2_alg».proof.Proof.Gen.Pre_finite_inputs
import proofs.«105547_j40785009443358_2_alg».proof.Proof.Finite
import Idealize.ShloMosaic.Lib.ReduceAll

set_option maxRecDepth 16384

noncomputable section

namespace Cert.Pre_finite_inputs.Decode

open Cert.Pre_finite_inputs Cert.Pre_finite_inputs.Gen Cert.Laws
open Idealize.ShloMosaic Idealize.ShloMosaic.ValueIdx

instance : Subsingleton S_.Idx := ⟨fun a b => funext fun d => d.elim0⟩

/-- The word of `+inf` is `+∞`. -/
theorem ofBits_inf : Ideal.ofBits .f32 0x7F800000#32 = ⊤ := by
  simp [Ideal.ofBits, Ideal.ieee]

/-- An extended real whose absolute value is below `+∞` is a real. -/
theorem isReal_of_abs_lt (x : EReal) (h : Ideal.cmp .olt (max x (-x)) (Ideal.ofBits .f32 0x7F800000#32) = 1#1) : IsReal x := by
  rw [ofBits_inf] at h
  induction x using EReal.rec with
  | bot => simp [Ideal.cmp] at h
  | coe r => exact isReal_coe r
  | top => simp [Ideal.cmp] at h

/-- One conjunct: `all (|a| < +inf) = 1` makes every entry of `a` real. -/
theorem allReal_of_all {s : Shape} (a : FVec Ideal s .f32) (hb : S_.BroadcastsInDim s (![] : Fin 0 → Fin s.rank))
    (axes : List (Fin s.rank)) (h : s.ReducesTo axes S_) (hu : 0 < S_.numel)
    (e : Host.reduce IntOp.andi (cmpf .olt (Host.absf a) (broadcastInDim s ![] hb (constant (F := Ideal) S_ .f32 0x7F800000#32)))
      (constantI S_ 1 1#1) h hu ix0 = 1#1) : AllReal a := fun i => by
  have hi := Host.reduce_andi_all _ _ h hu ix0 e i
  exact isReal_of_abs_lt (a i) hi

/-- THE PRECONDITION gives every float argument real. -/
theorem allReal_of_pre (a0 : FVec Ideal S100000x128 .f32) (a1 : IVec S2x625000 32) (a2 : FVec Ideal S128x128 .f32) (a3 : FVec Ideal S128 .f32)
    (a4 : FVec Ideal S128x128 .f32) (a5 a6 a7 : FVec Ideal S128 .f32)
    (h : fn (F := Ideal) a0 a1 a2 a3 a4 a5 a6 a7 = fun _ => 1#1) :
    AllReal a0 ∧ AllReal a2 ∧ AllReal a3 ∧ AllReal a4 ∧ AllReal a5 ∧ AllReal a6 ∧ AllReal a7 := by
  have h0 := congrFun h ix0
  dsimp only [fn, fn_part1] at h0
  obtain ⟨h28, h32⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨allReal_of_all a0 _ _ _ _ h3, allReal_of_all a2 _ _ _ _ h7,
    allReal_of_all a3 _ _ _ _ h12, allReal_of_all a4 _ _ _ _ h17,
    allReal_of_all a5 _ _ _ _ h22, allReal_of_all a6 _ _ _ _ h27,
    allReal_of_all a7 _ _ _ _ h32⟩

end Cert.Pre_finite_inputs.Decode

end
-- ==== Proof.lean ====
/-
  Equivalence over the extended reals of a graph-convolution layer with batch normalisation, written as three grid
  regions with host operations between them, against its plain reference.

  Both programs compute, from node features `x` [100000, 128], an edge list [2, 625000] and weights,
    h = x · W,   r = max (x · W' + b') 0,
    y = (scatter-add over dst of h[src] * dis[src] * dis[dst]) + b + r,   dis = where (deg > 0) (1 / sqrt deg) 0,
    result = (y - mean) * (1 / sqrt (var + ε)) * γ + β   per column, with mean and var the column statistics of `y`.
  The kernel forms `h` and `r` by one product with the joined matrix [W | W'] and a joined bias [0 | b'], sums each
  column tile by tile, and takes `var = E[y²] - E[y] * E[y]`; the reference takes `var = E[(y - E[y])²]`.
  The degree, weight, gather and scatter steps are the same operations in both programs.

  The proof: each region, read off its generated frame, leaves a whole-array function of what it finds (three modules, one
  per region); the host operations between regions are read through the generated fold; the kernel's `h`, `r` and hence `y`
  are the reference's; a sum over 100000 rows is the sum of ten tile sums; and the two variances agree because every entry
  of `y` is a real number when the float inputs are finite (the variance identity expands a square, which needs that).
  The precondition is used exactly there. The frames are the generated ones; the reference's is its run with the result dropped.
-/
import proofs.«105547_j40785009443358_2_alg».proof.Defs
import proofs.«105547_j40785009443358_2_alg».proof.Proof.Gen.Kernel
import proofs.«105547_j40785009443358_2_alg».proof.Proof.Gen.Kernel.Skeleton
import proofs.«105547_j40785009443358_2_alg».proof.Proof.Gen.Kernel.Launch
import proofs.«105547_j40785009443358_2_alg».proof.Proof.Gen.Kernel.Points
import proofs.«105547_j40785009443358_2_alg».proof.Proof.Gen.Kernel.Frame
import proofs.«105547_j40785009443358_2_alg».proof.Proof.Gen.KernelIdeal
import proofs.«105547_j40785009443358_2_alg».proof.Proof.Gen.KernelIdeal.Skeleton
import proofs.«105547_j40785009443358_2_alg».proof.Proof.Gen.KernelIdeal.Launch
import proofs.«105547_j40785009443358_2_alg».proof.Proof.Gen.KernelIdeal.Points
import proofs.«105547_j40785009443358_2_alg».proof.Proof.Gen.KernelIdeal.Frame
import proofs.«105547_j40785009443358_2_alg».proof.Proof.Gen.ReferenceIdeal
import proofs.«105547_j40785009443358_2_alg».proof.Proof.Gen.Pre_finite_inputs
import proofs.«105547_j40785009443358_2_alg».proof.Proof.KernelRun
import proofs.«105547_j40785009443358_2_alg».proof.Proof.KernelValue
import proofs.«105547_j40785009443358_2_alg».proof.Proof.PreDecode
import proofs.«105547_j40785009443358_2_alg».proof.Proof.RefRead
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with the reference's result function of the (agreeing) arguments. -/
theorem algebraic : Cert.algebraic_KernelIdeal_ReferenceIdeal := by
  intro m ρ m' ρ' hpre hagree
  refine ⟨fun c => Cert.ReferenceIdeal.ReadP.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    ?_, ?_⟩
  · refine (θ_run Cert.KernelIdeal.defs _ _).mono (fun r h c => ⟨(h c).1.trans ?_, (h c).2⟩) (Cert.KernelIdeal.RunValue.run m ρ)
    obtain ⟨h0, h2, h3, h4, h5, -, -⟩ := Cert.Pre_finite_inputs.Decode.allReal_of_pre _ _ _ _ _ _ _ _ (hpre c)
    exact Cert.KernelIdeal.Whole.result_eq m ρ c h0 h2 h3 h4 h5
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7⟩ := hagree c
    rw [Cert.ReferenceIdeal.ReadP.val_main_v77_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
